-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S256x512 : Shape := ⟨2, ![256, 512]⟩
abbrev S256 : Shape := ⟨1, ![256]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x512 .f32) (main_arg1 : FVec F S256x512 .f32) (main_arg2 : FVec F S256 .f32) (main_arg3 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x512 : Shape := ⟨2, ![50000, 512]⟩
abbrev S256x512 : Shape := ⟨2, ![256, 512]⟩
abbrev S256 : Shape := ⟨1, ![256]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S512x256 : Shape := ⟨2, ![512, 256]⟩
abbrev S50000x256 : Shape := ⟨2, ![50000, 256]⟩
abbrev S1000x512 : Shape := ⟨2, ![1000, 512]⟩
abbrev S1000x1 : Shape := ⟨2, ![1000, 1]⟩
abbrev S1000x256 : Shape := ⟨2, ![1000, 256]⟩
abbrev S800000x256 : Shape := ⟨2, ![800000, 256]⟩
abbrev S1x256 : Shape := ⟨2, ![1, 256]⟩

abbrev nBuf : Space → Nat
  | .hbm => 47
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S256x512, .f32⟩
  | .hbm, ⟨2, _⟩ => ⟨S256, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S512x256, .f32⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S1x256, .f32⟩
  | .hbm, ⟨46, _⟩ => ⟨S50000x256, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1000x1, .f32⟩
  | .local _ .vmem, ⟨4, _⟩ => ⟨S1000x1, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x1, .f32⟩
  | .local _ .vmem, ⟨10, _⟩ => ⟨S1000x1, .f32⟩
  | .local _ .vmem, ⟨11, _⟩ => ⟨S1x256, .f32⟩
  | .local _ .vmem, ⟨12, _⟩ => ⟨S1000x256, .f32⟩
  | .local _ .vmem, ⟨13, _⟩ => ⟨S1000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S256x512_S512x256_1_0 : S256x512.Transposes [1, 0] S512x256
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  shapeCasts_S1000x256_S1000x256 : S1000x256.ShapeCasts S1000x256
  scatter_S50000_S800000x1_S800000_n_0_0_1_wf : ScatterDims.WF S50000 S800000x1 S800000 [] [0] [0] 1
  dot_S1000x512_S512x256_S1000x256_1_0_0_1_n_n_wf : DotDims.WF S1000x512 S512x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S50000x256.size a
  hwx0_3 : ∀ i : grid0.Coords, EltTy.bits .f32 = 32 ∨ (Rect.block (s := S50000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S256x512 : Shape := ⟨2, ![256, 512]⟩
abbrev S256 : Shape := ⟨1, ![256]⟩
abbrev S2x800000 : Shape := ⟨2, ![2, 800000]⟩
abbrev S1x800000 : Shape := ⟨2, ![1, 800000]⟩
abbrev S800000 : Shape := ⟨1, ![800000]⟩
abbrev S512x256 : Shape := ⟨2, ![512, 256]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S1x256 : Shape := ⟨2, ![1, 256]⟩

abbrev nBuf : Space → Nat
  | .hbm => 72
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S256x512, .f32⟩
  | .hbm, ⟨2, _⟩ => ⟨S256, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S512x256, .f32⟩
  | .hbm, ⟨9, _⟩ => ⟨S50000x256, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S800000x1, .f32⟩
  | .hbm, ⟨60, _⟩ => ⟨S800000x256, .f32⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call2_cst : Ref sig .tc := ⟨.hbm, 69, rfl⟩
abbrev main_call2_v0 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x512_S512x256_1_0 : S256x512.Transposes [1, 0] S512x256
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S512x256_S50000x256_1_0_0_1_n_n_wf : DotDims.WF S50000x512 S512x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KernelRun.lean ====
/-
  The kernel program's run with its result named.

  @main of the kernel program is eight segments: five stretches of host operations, the first region (the scaled
  transformed features), one more stretch (the gather along the edges and the scatter-add onto the destinations) and the
  second region (normalise, add the bias, cut off at zero). Every weakly fair execution terminates without a fault, and
  in the final state every unscoped buffer holds the last segment boundary's contents: in particular the result buffer
  holds what the second region's write-backs leave, and the four argument arrays are as launched. The frame statement
  keeps only the arguments; this one also keeps the result, for the value comparison.
-/
import proofs.«137502_j3169685865283_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the
    last boundary's contents and the argument arrays end as launched. -/
theorem run_result : θ_run defs (onTc (τ := τ) (main (F := F))) ⟨m, fun _ => 0, ρ⟩ (fun r => ∀ c : Dev nD,
      r.2.mem ((c.tc : Thread nD τ).loc main_v29) = W8 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v29 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.RunValue

end
-- ==== Proof.LibRowGatherScatter.lean ====
/-
  Row gather and row scatter-add read at coordinates.

  What `x[idx]` on the rows of a matrix `x : [N, C]` at an integer column `idx : [E, 1]` lowers to is a
  `stablehlo.gather` with offset_dims `[1]`, collapsed_slice_dims `[0]`, start_index_map `[0]`, index_vector_dim 1 and
  slice_sizes `[1, C]`: result row `e` is the operand's row at the start index `idx[e, 0]` read as a signed integer
  and CLAMPED into `[0, N − 1]` (`pickRow`, `gather_rows_apply`; for a flat operand `x : [N]`, `gather_vec_apply`).
  What a segment sum of the rows of `upd : [E, C]` into `x : [N, C]` lowers to is a `stablehlo.scatter` with an `add`
  body, update_window_dims `[1]`, inserted_window_dims `[0]`, scatter_dims_to_operand_dims `[0]` and
  index_vector_dim 1: the start index is read signed and NOT clamped, so update row `e` lands on operand row `v`
  exactly when `idx[e, 0]` IS `v` as an integer (`lands`), and is dropped when it names no row. At the ideal instance
  element `(v, c)` of the result is the operand's plus the sum of `upd[e, c]` over the rows `e` that land on `v`
  (`scatterAdd_rows_apply`). A row that lands on `v` is a row the gather reads at `v` (`pickRow_of_lands`).
  All statements are generic in the sizes; the dimension numbers are literal records over any proof of their
  conditions, so a program's printed record is an instance by unfolding its name.
-/
import Idealize.ShloMosaic.Lib.ValueIdx

noncomputable section

open scoped BigOperators

namespace Idealize.ShloMosaic.RowOps

open Idealize.ShloMosaic Idealize.ShloMosaic.ValueIdx

/-! ## The row a start index names -/

/-- The operand row a gather reads for result row `e`: the start index `idx[e, 0]` read as a signed integer and
    clamped into `[0, N − 1]` (a negative index reads row 0, one past the end row `N − 1`). -/
def pickRow {N E w : Nat} (hN : 0 < N) (idx : IVec ⟨2, ![E, 1]⟩ w) (e : Fin E) : Fin N :=
  ⟨min (idx (ix2 e (0 : Fin 1))).toInt.toNat (N - 1), by omega⟩

/-- Update row `e` lands on operand row `v`: the start index `idx[e, 0]`, read as a signed integer and not
    clamped, is `v`. -/
def lands {N E w : Nat} (idx : IVec ⟨2, ![E, 1]⟩ w) (e : Fin E) (v : Fin N) : Prop :=
  (idx (ix2 e (0 : Fin 1))).toInt = (v.val : Int)

instance {N E w : Nat} (idx : IVec ⟨2, ![E, 1]⟩ w) (e : Fin E) (v : Fin N) : Decidable (lands idx e v) :=
  inferInstanceAs (Decidable ((idx (ix2 e (0 : Fin 1))).toInt = (v.val : Int)))

/-- A row that lands on `v` is read at `v`: an index that is a row needs no clamping. -/
theorem pickRow_of_lands {N E w : Nat} (hN : 0 < N) (idx : IVec ⟨2, ![E, 1]⟩ w) (e : Fin E) (v : Fin N)
    (h : lands idx e v) : pickRow hN idx e = v := by
  refine Fin.ext ?_
  unfold lands at h
  show min (idx (ix2 e (0 : Fin 1))).toInt.toNat (N - 1) = v.val
  have hv := v.isLt
  rw [h]
  simp only [Int.toNat_natCast]
  omega

/-- The same for a second index array that agrees with the first at row `e`. -/
theorem pickRow_of_lands_of_eq {N E w : Nat} (hN : 0 < N) (idx idx' : IVec ⟨2, ![E, 1]⟩ w) (e : Fin E) (v : Fin N)
    (h : lands idx e v) (h' : idx' (ix2 e (0 : Fin 1)) = idx (ix2 e (0 : Fin 1))) : pickRow hN idx' e = v := by
  have : lands idx' e v := by unfold lands; rw [h']; exact h
  exact pickRow_of_lands hN idx' e v this

/-! ## `stablehlo.gather` of the rows of a rank-2 operand at a column of start indices, read at an index -/

section Gather
variable {α : Type}

/-- The dimension numbers of `x[idx]` on rows, for an operand `[N, C]`, start indices `[E, 1]` and result
    `[E, C]`; their conditions `wf` are decided on a program's literal shapes. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `pickRow idx e`, column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (pickRow hN idx e) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have hst : (gatherRowsDims N E C wf).start (ix2 e c) idx 1 = 0 := by
      unfold GatherDims.start
      rw [dif_neg (fun h => absurd (List.mem_singleton.mp h) (show ¬((1 : Fin 2) = 0) by decide))]
    rw [hst]
    simp only [Nat.add_zero, Nat.zero_add]
    rfl

/-- The dimension numbers of `x[idx]` on a flat operand `[N]` at a column of start indices `[E, 1]`, result `[E]`;
    their conditions `wf` are decided on a program's literal shapes. -/
abbrev gatherVecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at `pickRow idx e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (pickRow hN idx e)) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## `stablehlo.scatter` with an `add` body of the rows of the updates into a rank-2 operand, read at an index -/

section Scatter

/-- The dimension numbers of a row segment sum, for an operand `[N, C]`, scatter indices `[E, 1]` and updates
    `[E, C]`; their conditions `wf` are decided on a program's literal shapes. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c')` starts at `idx[e, 0]`, read signed … -/
theorem scatterRows_start_row (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e c') ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at 0. -/
theorem scatterRows_start_col (idx : IVec ⟨2, ![E, 1]⟩ w) (e : Fin E) (c' : Fin C) :
    (scatterRowsDims N E C wf).start (ix2 e c') idx 1 = 0 := by
  unfold ScatterDims.start
  rw [dif_neg (fun h => absurd (List.mem_singleton.mp h) (show ¬((1 : Fin 2) = 0) by decide))]

/-- The row axis is inserted: the window coordinate on it is 0 … -/
theorem scatterRows_window_row (e : Fin E) (c' : Fin C) : (scatterRowsDims N E C wf).window (ix2 e c') 0 = 0 := by
  unfold ScatterDims.window
  rw [dif_neg (by simp [ScatterDims.sKept, Shape.kept])]

/-- … and on the column axis it is the update's column. -/
theorem scatterRows_window_col (e : Fin E) (c' : Fin C) : (scatterRowsDims N E C wf).window (ix2 e c') 1 = c'.val := by
  rfl

/-- WHERE AN UPDATE LANDS: update `(e, c')` lands on operand element `(v, c)` exactly when row `e` lands on row
    `v` and the columns agree. An update whose start index names no row has no result index. -/
theorem resultIdx?_rows (idx : IVec ⟨2, ![E, 1]⟩ w) (e : Fin E) (c' : Fin C) (v : Fin N) (c : Fin C) :
    (scatterRowsDims N E C wf).resultIdx? (ix2 e c') idx = some (ix2 v c) ↔ lands idx e v ∧ c' = c := by
  have h0 := scatterRows_start_row wf idx e c'
  have h1 := scatterRows_start_col wf idx e c'
  have w0 := scatterRows_window_row wf e c'
  have w1 := scatterRows_window_col wf e c'
  have hv := v.isLt
  have hc' := c'.isLt
  unfold lands
  unfold ScatterDims.resultIdx?
  split
  · rename_i h
    rw [Option.some.injEq]
    constructor
    · intro hf
      have e0 := congrArg (fun f => (f 0).val) hf
      have e1 := congrArg (fun f => (f 1).val) hf
      simp only [h0, h1, w0, w1] at e0 e1
      have p0 := (h 0).1
      rw [h0, w0] at p0
      refine ⟨?_, Fin.ext ?_⟩
      · change ((idx (ix2 e (0 : Fin 1))).toInt + ((0 : Nat) : Int)).toNat = v.val at e0
        omega
      · change ((0 : Int) + (c'.val : Int)).toNat = c.val at e1
        omega
    · rintro ⟨hl, rfl⟩
      funext a; refine Fin.ext ?_
      match a with
      | ⟨0, _⟩ =>
        show ((scatterRowsDims N E C wf).start (ix2 e c') idx 0 + ((scatterRowsDims N E C wf).window (ix2 e c') 0 : Nat)).toNat = v.val
        rw [h0, w0, hl]; simp
      | ⟨1, _⟩ =>
        show ((scatterRowsDims N E C wf).start (ix2 e c') idx 1 + ((scatterRowsDims N E C wf).window (ix2 e c') 1 : Nat)).toNat = c'.val
        rw [h1, w1]; simp
  · rename_i h
    constructor
    · intro hf; exact absurd hf (by simp)
    · rintro ⟨hl, rfl⟩
      exfalso; apply h
      intro a
      match a with
      | ⟨0, _⟩ =>
        show 0 ≤ (scatterRowsDims N E C wf).start (ix2 e c') idx 0 + ((scatterRowsDims N E C wf).window (ix2 e c') 0 : Nat) ∧
          (scatterRowsDims N E C wf).start (ix2 e c') idx 0 + ((scatterRowsDims N E C wf).window (ix2 e c') 0 : Nat) < (N : Int)
        rw [h0, w0, hl]; constructor <;> omega
      | ⟨1, _⟩ =>
        show 0 ≤ (scatterRowsDims N E C wf).start (ix2 e c') idx 1 + ((scatterRowsDims N E C wf).window (ix2 e c') 1 : Nat) ∧
          (scatterRowsDims N E C wf).start (ix2 e c') idx 1 + ((scatterRowsDims N E C wf).window (ix2 e c') 1 : Nat) < (C : Int)
        rw [h1, w1]; constructor <;> omega

/-- THE ROW SCATTER-ADD READ AT `(v, c)`, at the ideal instance: the operand's element plus the sum of column `c` of
    the update rows that land on row `v`. Rows whose start index names no operand row contribute nothing. -/
theorem scatterAdd_rows_apply {φ : FTy} (x : FVec Ideal ⟨2, ![N, C]⟩ φ) (idx : IVec ⟨2, ![E, 1]⟩ w)
    (upd : FVec Ideal ⟨2, ![E, C]⟩ φ) (v : Fin N) (c : Fin C) :
    Host.scatterAdd (F := Ideal) (scatterRowsDims N E C wf) x idx upd (ix2 v c) =
      x (ix2 v c) + ∑ e ∈ Finset.univ.filter (fun e : Fin E => lands idx e v), upd (ix2 e c) := by
  show Ideal.hostScatterAdd (scatterRowsDims N E C wf) x idx upd (ix2 v c) = _
  unfold Ideal.hostScatterAdd
  congr 1
  symm
  refine Finset.sum_nbij' (fun e : Fin E => (ix2 e c : (⟨2, ![E, C]⟩ : Shape).Idx))
    (fun j : (⟨2, ![E, C]⟩ : Shape).Idx => (j 0 : Fin E)) ?_ ?_ ?_ ?_ ?_
  · intro e he
    have he' := (Finset.mem_filter.mp he).2
    exact Finset.mem_filter.mpr ⟨Finset.mem_univ _, (resultIdx?_rows wf idx e c v c).mpr ⟨he', rfl⟩⟩
  · intro j hj
    obtain ⟨a, b, rfl⟩ : ∃ a b, j = ix2 a b := ⟨j 0, j 1, eq_ix2 j⟩
    have hj' := (Finset.mem_filter.mp hj).2
    exact Finset.mem_filter.mpr ⟨Finset.mem_univ _, ((resultIdx?_rows wf idx a b v c).mp hj').1⟩
  · intro e _; rfl
  · intro j hj
    obtain ⟨a, b, rfl⟩ : ∃ a b, j = ix2 a b := ⟨j 0, j 1, eq_ix2 j⟩
    have hj' := (Finset.mem_filter.mp hj).2
    obtain rfl : b = c := ((resultIdx?_rows wf idx a b v c).mp hj').2
    rfl
  · intro e _; rfl

end Scatter

/-! ## The same scatter into a flat operand: one update element per scatter index -/

section ScatterVec

/-- The dimension numbers of a segment sum of a flat `upd : [E]` into `x : [N]` at scatter indices `[E, 1]`: no
    window axes; their conditions `wf` are decided on a program's literal shapes. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update `e` starts at `idx[e, 0]`, read signed … -/
theorem scatterVec_start (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl)]
  have hsi : (scatterVecDims N E wf).siIdx (ix1 e) ⟨List.idxOf (0 : Fin 1) (scatterVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and its one axis is inserted: the window coordinate is 0. -/
theorem scatterVec_window (e : Fin E) : (scatterVecDims N E wf).window (ix1 e) 0 = 0 := by
  unfold ScatterDims.window
  rw [dif_neg (by simp [ScatterDims.sKept, Shape.kept])]

/-- WHERE AN UPDATE LANDS: update `e` lands on operand element `v` exactly when `lands idx e v`. -/
theorem resultIdx?_vec (idx : IVec ⟨2, ![E, 1]⟩ w) (e : Fin E) (v : Fin N) :
    (scatterVecDims N E wf).resultIdx? (ix1 e) idx = some (ix1 v) ↔ lands idx e v := by
  have h0 := scatterVec_start wf idx e
  have w0 := scatterVec_window wf e
  have hv := v.isLt
  unfold lands
  unfold ScatterDims.resultIdx?
  split
  · rename_i h
    rw [Option.some.injEq]
    constructor
    · intro hf
      have e0 := congrArg (fun f => (f 0).val) hf
      simp only [h0, w0] at e0
      have p0 := (h 0).1
      rw [h0, w0] at p0
      change ((idx (ix2 e (0 : Fin 1))).toInt + ((0 : Nat) : Int)).toNat = v.val at e0
      omega
    · intro hl
      funext a
      obtain rfl : a = 0 := Subsingleton.elim _ _
      refine Fin.ext ?_
      show ((scatterVecDims N E wf).start (ix1 e) idx 0 + ((scatterVecDims N E wf).window (ix1 e) 0 : Nat)).toNat = v.val
      rw [h0, w0, hl]; simp
  · rename_i h
    constructor
    · intro hf; exact absurd hf (by simp)
    · intro hl
      exfalso; apply h
      intro a
      obtain rfl : a = 0 := Subsingleton.elim _ _
      show 0 ≤ (scatterVecDims N E wf).start (ix1 e) idx 0 + ((scatterVecDims N E wf).window (ix1 e) 0 : Nat) ∧
        (scatterVecDims N E wf).start (ix1 e) idx 0 + ((scatterVecDims N E wf).window (ix1 e) 0 : Nat) < (N : Int)
      rw [h0, w0, hl]; constructor <;> omega

/-- THE FLAT SCATTER-ADD READ AT `v`, at the ideal instance: the operand's element plus the sum of the updates that
    land on `v`. -/
theorem scatterAdd_vec_apply {φ : FTy} (x : FVec Ideal ⟨1, ![N]⟩ φ) (idx : IVec ⟨2, ![E, 1]⟩ w)
    (upd : FVec Ideal ⟨1, ![E]⟩ φ) (v : Fin N) :
    Host.scatterAdd (F := Ideal) (scatterVecDims N E wf) x idx upd (ix1 v) =
      x (ix1 v) + ∑ e ∈ Finset.univ.filter (fun e : Fin E => lands idx e v), upd (ix1 e) := by
  show Ideal.hostScatterAdd (scatterVecDims N E wf) x idx upd (ix1 v) = _
  unfold Ideal.hostScatterAdd
  congr 1
  symm
  refine Finset.sum_nbij' (fun e : Fin E => (ix1 e : (⟨1, ![E]⟩ : Shape).Idx))
    (fun j : (⟨1, ![E]⟩ : Shape).Idx => (j 0 : Fin E)) ?_ ?_ ?_ ?_ ?_
  · intro e he
    have he' := (Finset.mem_filter.mp he).2
    exact Finset.mem_filter.mpr ⟨Finset.mem_univ _, (resultIdx?_vec wf idx e v).mpr he'⟩
  · intro j hj
    obtain ⟨a, rfl⟩ : ∃ a, j = ix1 a := ⟨j 0, eq_ix1 j⟩
    have hj' := (Finset.mem_filter.mp hj).2
    exact Finset.mem_filter.mpr ⟨Finset.mem_univ _, (resultIdx?_vec wf idx a v).mp hj'⟩
  · intro e _; rfl
  · intro j _
    obtain ⟨a, rfl⟩ : ∃ a, j = ix1 a := ⟨j 0, eq_ix1 j⟩
    rfl
  · intro e _; rfl

end ScatterVec

end Idealize.ShloMosaic.RowOps

end
-- ==== Proof.LibGcnLayer.lean ====
/-
  The algebra of one graph-convolution layer on the extended reals.

  A layer sends node features `X` to `out v c = ∑_{e into v} (∑_k X (g e) k · W k c) · (s e · t)`: every edge `e` into node `v`
  carries the transformed features of its source `g e`, scaled by the source's normaliser `s e` and the target's `t`.
  Because the transform is linear, the same number is obtained by aggregating first and transforming afterwards:
  `∑_k ((∑_{e into v} X (g e) k · s e) · t) · W k c`. On the extended reals this exchange of two finite sums and the
  distribution of the products over them hold when every entry is a real number (at an infinity `(a + b) · c` need not be
  `a · c + b · c`), so the law is stated for entries that are real, and proved by moving the whole expression into `ℝ`.
-/
import Idealize.ShloMosaic.PureOps.Ideal

open scoped BigOperators

namespace Cert.GcnLaw

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- THE LAYER LAW: aggregating the scaled source features over the edges into a node and then applying the linear
    transform equals transforming each source's features and then aggregating with the edge weights `s e · t`,
    when all entries are real. `S` is the set of edges into the node, `a e k` the source features of edge `e`,
    `s e` the source's normaliser, `t` the node's own, `W k` one column of the transform. -/
theorem layer_law {E K : Type*} [Fintype K] (S : Finset E) (a : E → K → EReal) (s : E → EReal) (t : EReal)
    (W : K → EReal) (ha : ∀ e k, IsReal (a e k)) (hs : ∀ e, IsReal (s e)) (ht : IsReal t) (hW : ∀ k, IsReal (W k)) :
    ∑ k, ((∑ e ∈ S, a e k * s e) * t) * W k = ∑ e ∈ S, (∑ k, a e k * W k) * (s e * t) := by
  choose a' ha' using ha
  choose s' hs' using hs
  obtain ⟨t', rfl⟩ := ht
  choose W' hW' using hW
  have hL : ∑ k, ((∑ e ∈ S, a e k * s e) * (t' : EReal)) * W k
      = ((∑ k, ((∑ e ∈ S, a' e k * s' e) * t') * W' k : ℝ) : EReal) := by
    rw [coe_sum]
    refine Finset.sum_congr rfl fun k _ => ?_
    rw [EReal.coe_mul, EReal.coe_mul, coe_sum, hW' k]
    congr 2
    refine Finset.sum_congr rfl fun e _ => ?_
    rw [EReal.coe_mul, ha' e k, hs' e]
  have hR : ∑ e ∈ S, (∑ k, a e k * W k) * (s e * (t' : EReal))
      = ((∑ e ∈ S, (∑ k, a' e k * W' k) * (s' e * t') : ℝ) : EReal) := by
    rw [coe_sum]
    refine Finset.sum_congr rfl fun e _ => ?_
    rw [EReal.coe_mul, EReal.coe_mul, coe_sum, hs' e]
    congr 1
    refine Finset.sum_congr rfl fun k _ => ?_
    rw [EReal.coe_mul, ha' e k, hW' k]
  rw [hL, hR]
  congr 1
  simp only [Finset.sum_mul, Finset.mul_sum]
  rw [Finset.sum_comm]
  refine Finset.sum_congr rfl fun e _ => Finset.sum_congr rfl fun k _ => ?_
  ring

end Cert.GcnLaw
-- ==== Proof.GraphStages.lean ====
/-
  The host steps of the layer that do not depend on which arrangement is run, as named functions of the edge list.

  The edge list is a [2, 800000] array of signed 32-bit indices: row 0 the sources, row 1 the destinations. From it:
    • `edgeRow`: one row as a flat vector;
    • `wrapIdx`: a signed index wrapped once, a negative index counting from the end (`i + 50000` where `i < 0`);
    • `idxColumn`: a flat index vector as a column [800000, 1], the form the gathers and scatters take;
    • `degree`: the in-degree of every node, an accumulating scatter of ones into zeros at the destinations;
    • `normaliser`: `deg^(-1/2)` where the degree is positive, 0 elsewhere;
    • `aggregate`: rows gathered at the sources and added onto the rows the destinations name.
  Each is stated over any proofs of its shape conditions, so two programs that spell these steps alike meet in one term.
  Two facts carry the comparison of the arrangements: a normaliser is always a real number (`normaliser_isReal`: the
  inverse square root of a positive extended real is real, +∞ included, and the other branch is 0), and an edge that lands
  on node `n` — its destination index IS `n`, a nonnegative number — is read at `n` also after wrapping
  (`pickRow_wrapped_of_lands`).
-/
import Idealize.ShloMosaic.PureOps.Ideal.Laws
import Idealize.ShloMosaic.Lib.ValueIdx
import Idealize.ShloMosaic.Lib.Pipeline.Value
import proofs.«137502_j3169685865283_2_alg».proof.Proof.LibRowGatherScatter
import proofs.«137502_j3169685865283_2_alg».proof.Proof.LibGcnLayer

noncomputable section

open scoped BigOperators

namespace Cert.GraphConv

open Idealize.ShloMosaic Idealize.ShloMosaic.ValueIdx Idealize.ShloMosaic.RowOps Cert.GcnLaw

/-! ## The shapes -/

abbrev E2 : Shape := ⟨2, ![2, 800000]⟩
abbrev E1 : Shape := ⟨2, ![1, 800000]⟩
abbrev Ev : Shape := ⟨1, ![800000]⟩
abbrev Ec : Shape := ⟨2, ![800000, 1]⟩
abbrev Nv : Shape := ⟨1, ![50000]⟩
abbrev Nc : Shape := ⟨2, ![50000, 1]⟩
abbrev NC : Shape := ⟨2, ![50000, 256]⟩
abbrev Sc : Shape := ⟨0, ![]⟩

/-! ## The index columns -/

/-- One row of the edge list (the row at offset `off`) as a flat vector. -/
def edgeRow (off : Fin 2 → Nat) (hs : E2.Slices off E1) (hc : E1.ShapeCasts Ev) (ei : IVec E2 32) : IVec Ev 32 :=
  shapeCast Ev (extractStridedSlice E1 off ei hs) hc

/-- A signed index wrapped once: where it is negative, 50000 is added. -/
def wrapIdx (hb : Sc.BroadcastsInDim Ev (![] : Fin 0 → Fin Ev.rank)) (r : IVec Ev 32) : IVec Ev 32 :=
  select (cmpi .slt r (broadcastInDim Ev ![] hb (constantI Sc 32 0#32)))
    (addi r (broadcastInDim Ev ![] hb (constantI Sc 32 50000#32))) r

/-- A flat index vector as a column. -/
def idxColumn (hb : Ev.BroadcastsInDim Ec (![0] : Fin 1 → Fin Ec.rank)) (r : IVec Ev 32) : IVec Ec 32 :=
  broadcastInDim Ec ![0] hb r

/-- The column's entry in row `e` is the vector's entry `e`. -/
theorem idxColumn_apply (hb : Ev.BroadcastsInDim Ec (![0] : Fin 1 → Fin Ec.rank)) (r : IVec Ev 32) (e : Fin 800000) :
    idxColumn hb r (ix2 e (0 : Fin 1)) = r (ix1 e) := by
  unfold idxColumn
  exact broadcastInDim_apply _ hb r (ix2 e (0 : Fin 1)) (ix1 e) (fun a => by
    match a with
    | ⟨0, _⟩ => show e.val = if (800000 : Nat) = 1 then 0 else e.val; rw [if_neg (by decide)])

/-- A nonnegative index is left as it is by wrapping. -/
theorem wrapIdx_of_nonneg (hb : Sc.BroadcastsInDim Ev (![] : Fin 0 → Fin Ev.rank)) (r : IVec Ev 32) (i : Ev.Idx)
    (h : 0 ≤ (r i).toInt) : wrapIdx hb r i = r i := by
  unfold wrapIdx
  rw [select_apply]
  have hc : cmpi .slt r (broadcastInDim Ev ![] hb (constantI Sc 32 0#32)) i = 0#1 := by
    show IntOp.cmpi .slt (r i) (0#32) = 0#1
    show BitVec.ofBool ((r i).slt 0#32) = 0#1
    have : (r i).slt 0#32 = false := by
      rw [BitVec.slt_eq_decide]  -- toInt comparison
      simp only [BitVec.toInt_zero, decide_eq_false_iff_not, not_lt]
      exact h
    rw [this]; rfl
  rw [hc]
  exact select_zero _ _

/-- An edge that lands on node `n` is read at `n` also through the wrapped destination column. -/
theorem pickRow_wrapped_of_lands (hb0 : Sc.BroadcastsInDim Ev (![] : Fin 0 → Fin Ev.rank))
    (hb : Ev.BroadcastsInDim Ec (![0] : Fin 1 → Fin Ec.rank)) (r : IVec Ev 32) (e : Fin 800000) (n : Fin 50000)
    (h : lands (idxColumn hb r) e n) :
    pickRow (N := 50000) (by decide) (idxColumn hb (wrapIdx hb0 r)) e = n := by
  refine pickRow_of_lands_of_eq (by decide) (idxColumn hb r) (idxColumn hb (wrapIdx hb0 r)) e n h ?_
  rw [idxColumn_apply, idxColumn_apply]
  refine wrapIdx_of_nonneg hb0 r (ix1 e) ?_
  have h' : (idxColumn hb r (ix2 e (0 : Fin 1))).toInt = (n.val : Int) := h
  rw [idxColumn_apply] at h'
  rw [h']
  exact Int.natCast_nonneg _

/-! ## The degree and its normaliser

The steps are stated at any float instance `F` (a program spells them before its floats are read); what is proved of
them is proved at the extended reals. -/

section Steps
variable {F : FTy → Type} [FloatOps F]

/-- The in-degree of every node: ones added onto zeros at the destinations. -/
def degree (wf : ScatterDims.WF Nv Ec Ev [] [0] [0] 1) (hbN : Sc.BroadcastsInDim Nv (![] : Fin 0 → Fin Nv.rank))
    (hbE : Sc.BroadcastsInDim Ev (![] : Fin 0 → Fin Ev.rank)) (dst : IVec Ec 32) : FVec F Nv .f32 :=
  Host.scatterAdd (F := F) (scatterVecDims 50000 800000 wf)
    (broadcastInDim Nv ![] hbN (constant (F := F) Sc .f32 0x00000000#32)) dst
    (broadcastInDim Ev ![] hbE (constant (F := F) Sc .f32 0x3F800000#32))

/-- `deg^(-1/2)` where the degree is positive (the inner guard puts 1 under the root elsewhere), and 0 elsewhere. -/
def normaliser (hbN : Sc.BroadcastsInDim Nv (![] : Fin 0 → Fin Nv.rank)) (deg : FVec F Nv .f32) : FVec F Nv .f32 :=
  select (cmpf .ogt deg (broadcastInDim Nv ![] hbN (constant (F := F) Sc .f32 0x00000000#32)))
    (Host.rsqrt (select (cmpf .ogt deg (broadcastInDim Nv ![] hbN (constant (F := F) Sc .f32 0x00000000#32))) deg
      (broadcastInDim Nv ![] hbN (constant (F := F) Sc .f32 0x3F800000#32))))
    (broadcastInDim Nv ![] hbN (constant (F := F) Sc .f32 0x00000000#32))

/-- The normaliser vector as a column [50000, 1]. -/
def normaliserColumn (hc : Nv.ShapeCasts Nc) (d : FVec F Nv .f32) : FVec F Nc .f32 := shapeCast Nc d hc

/-- Rows of `h` gathered at the source column and added, from zero, onto the rows the destination column names. -/
def aggregate (wfs : ScatterDims.WF NC Ec ⟨2, ![800000, 256]⟩ [1] [0] [0] 1)
    (wfg : GatherDims.WF NC Ec ⟨2, ![800000, 256]⟩ [1] [0] [] [0] [] 1 ![1, 256])
    (hbz : Sc.BroadcastsInDim NC (![] : Fin 0 → Fin NC.rank)) (h : FVec F NC .f32) (src dst : IVec Ec 32) :
    FVec F NC .f32 :=
  Host.scatterAdd (F := F) (scatterRowsDims 50000 800000 256 wfs)
    (broadcastInDim NC ![] hbz (constant (F := F) Sc .f32 0x00000000#32)) dst
    (Host.gather (gatherRowsDims 50000 800000 256 wfg) h src)

end Steps

/-- A normaliser is a real number, whatever the degree vector holds. -/
theorem normaliser_isReal (hbN : Sc.BroadcastsInDim Nv (![] : Fin 0 → Fin Nv.rank)) (deg : FVec Ideal Nv .f32) (i : Nv.Idx) :
    IsReal (normaliser (F := Ideal) hbN deg i) := by
  unfold normaliser
  rw [select_apply]
  have hz : broadcastInDim Nv ![] hbN (constant (F := Ideal) Sc .f32 0x00000000#32) i = (0 : EReal) := by
    rw [broadcastInDim_apply _ hbN _ i (fun a => a.elim0) (fun a => a.elim0)]
    exact Ideal.ofBits_zero_f32
  have hcmp : cmpf .ogt deg (broadcastInDim Nv ![] hbN (constant (F := Ideal) Sc .f32 0x00000000#32)) i
      = BitVec.ofBool (decide ((0 : EReal) < deg i)) := by
    show Ideal.cmp .ogt (deg i) (broadcastInDim Nv ![] hbN (constant (F := Ideal) Sc .f32 0x00000000#32) i) = _
    rw [hz]; rfl
  rw [hcmp, hz]
  by_cases hpos : (0 : EReal) < deg i
  · rw [decide_eq_true hpos]
    show IsReal (Scalar.select 1#1 _ _)
    rw [select_one]
    show IsReal (Ideal.rsqrt (select _ deg _ i))
    rw [select_apply, hcmp, decide_eq_true hpos]
    show IsReal (Ideal.rsqrt (Scalar.select 1#1 _ _))
    rw [select_one]
    generalize deg i = x at hpos
    induction x using EReal.rec with
    | bot => exact absurd hpos (by simp)
    | top => rw [Ideal.rsqrt_top]; exact IsReal.zero
    | coe r =>
      have hr : 0 < r := by exact_mod_cast hpos
      rw [Ideal.rsqrt_coe, if_neg (not_lt.mpr hr.le), if_neg hr.ne']
      exact IsReal.coe _
  · rw [decide_eq_false hpos]
    show IsReal (Scalar.select 0#1 _ _)
    rw [select_zero]
    exact IsReal.zero

/-- The column's entry in row `p` is the vector's entry `p`. -/
theorem normaliserColumn_apply (hc : Nv.ShapeCasts Nc) (d : FVec Ideal Nv .f32) (p : Fin 50000) :
    normaliserColumn (F := Ideal) hc d (ix2 p (0 : Fin 1)) = d (ix1 p) := by
  unfold normaliserColumn
  refine shapeCast_apply d hc (ix2 p (0 : Fin 1)) (ix1 p) ?_
  rw [Shape.rowMajor_val_two, Shape.rowMajor_val_one]
  show p.val = p.val * 1 + 0
  omega

/-! ## The aggregate -/

/-- The aggregate at `(n, q)`: the sum over the edges landing on `n` of entry `q` of the row the edge's source reads. -/
theorem aggregate_at (wfs : ScatterDims.WF NC Ec ⟨2, ![800000, 256]⟩ [1] [0] [0] 1)
    (wfg : GatherDims.WF NC Ec ⟨2, ![800000, 256]⟩ [1] [0] [] [0] [] 1 ![1, 256])
    (hbz : Sc.BroadcastsInDim NC (![] : Fin 0 → Fin NC.rank)) (h : FVec Ideal NC .f32) (src dst : IVec Ec 32)
    (n : Fin 50000) (q : Fin 256) :
    aggregate (F := Ideal) wfs wfg hbz h src dst (ix2 n q)
      = ∑ e ∈ Finset.univ.filter (fun e : Fin 800000 => lands dst e n), h (ix2 (pickRow (N := 50000) (by decide) src e) q) := by
  unfold aggregate
  rw [scatterAdd_rows_apply wfs]
  have hz : broadcastInDim NC ![] hbz (constant (F := Ideal) Sc .f32 0x00000000#32) (ix2 n q) = (0 : EReal) := by
    rw [broadcastInDim_apply _ hbz _ (ix2 n q) (fun a => a.elim0) (fun a => a.elim0)]
    exact Ideal.ofBits_zero_f32
  rw [hz, zero_add]
  refine Finset.sum_congr rfl fun e _ => ?_
  exact gather_rows_apply (by decide) wfg h src e q

end Cert.GraphConv

end
-- ==== Proof.KernelStages.lean ====
/-
  The kernel program's host stretches, read one stretch at a time at the buffers the value needs.

  Between the launch and the first region the host computes the source and destination vectors of the edge list, the
  in-degrees, the normalisers (as a vector and then as a column) and the transposed weight; between the two regions it
  gathers the first region's rows along the edges and scatter-adds them, and views the bias as a row. Each lemma here
  says what one stretch leaves in one buffer, as a named step of the layer applied to what the stretch found — for any
  contents it starts from — or that the stretch leaves the buffer alone.
-/
import proofs.«137502_j3169685865283_2_alg».proof.Proof.Gen.KernelIdeal.Launch
import proofs.«137502_j3169685865283_2_alg».proof.Proof.GraphStages
import Idealize.ShloMosaic.Lib.StableHlo.Run

set_option maxRecDepth 16384

noncomputable section

namespace Cert.KernelIdeal.Stages

open Cert.KernelIdeal Cert.KernelIdeal.Gen Cert.KernelIdeal.Facts₀ Cert.GraphConv
open Idealize.ShloMosaic Idealize.ShloMosaic.TcCoe Idealize.ShloMosaic.StableHlo

variable {F : FTy → Type} [FloatOps F] (X : Valuation τ sig (Elt F))

/-! ## The stretch between the regions -/

/-- The aggregate: the first region's rows gathered at the wrapped source column, added onto the destination rows. -/
theorem between_aggregate :
    StableHlo.after (hostOps1 (F := F)) X (Proc.devRef .tc main_v27)
      = aggregate Facts₀.scatter_S50000x256_S800000x1_S800000x256_1_0_0_1_wf Facts₀.gather_S50000x256_S800000x1_S800000x256_1_0_n_n_0_1_1256_wf
          Facts₀.bcast_S_S50000x256 (X (Proc.devRef .tc main_v17))
          (idxColumn Facts₀.bcast_S800000_S800000x1_0 (wrapIdx Facts₀.bcast_S_S800000 (X (Proc.devRef .tc main_v1))))
          (idxColumn Facts₀.bcast_S800000_S800000x1_0 (X (Proc.devRef .tc main_v3))) := by
  after_results_simp <;> rfl

/-- The bias viewed as a row. -/
theorem between_bias :
    StableHlo.after (hostOps1 (F := F)) X (Proc.devRef .tc main_v28)
      = shapeCast S1x256 (X (Proc.devRef .tc main_arg2)) Facts₀.shapeCasts_S256_S1x256 := by
  after_results_simp <;> rfl

/-- The normaliser column is not written between the regions. -/
theorem between_column :
    StableHlo.after (hostOps1 (F := F)) X (Proc.devRef .tc main_v15) = X (Proc.devRef .tc main_v15) := by
  after_results_simp <;> rfl

/-! ## The five stretches before the first region -/

/-- The five stretches before the first region, folded from the contents `X`. -/
abbrev beforeRegions : Valuation τ sig (Elt F) :=
  StableHlo.after (hostOps0_4 (F := F)) (StableHlo.after (hostOps0_3 (F := F)) (StableHlo.after (hostOps0_2 (F := F))
    (StableHlo.after (hostOps0_1 (F := F)) (StableHlo.after (hostOps0 (F := F)) X))))

/-- The destination vector of the edge list. -/
abbrev dstOf (ei : IVec E2 32) : IVec Ev 32 := edgeRow ![1, 0] Facts₀.slices_S2x800000_S1x800000_1_0 Facts₀.shapeCasts_S1x800000_S800000 ei
/-- The source vector of the edge list. -/
abbrev srcOf (ei : IVec E2 32) : IVec Ev 32 := edgeRow ![0, 0] Facts₀.slices_S2x800000_S1x800000_0_0 Facts₀.shapeCasts_S1x800000_S800000 ei
/-- The normaliser vector of the edge list. -/
abbrev normOf (ei : IVec E2 32) : FVec F Nv .f32 :=
  normaliser Facts₀.bcast_S_S50000 (degree Facts₀.scatter_S50000_S800000x1_S800000_n_0_0_1_wf Facts₀.bcast_S_S50000 Facts₀.bcast_S_S800000
    (idxColumn Facts₀.bcast_S800000_S800000x1_0 (dstOf ei)))

/-- The source vector. -/
theorem before_src : beforeRegions X (Proc.devRef .tc main_v1) = srcOf (X (Proc.devRef .tc main_arg3)) := by
  after_results_simp <;> rfl

/-- The destination vector. -/
theorem before_dst : beforeRegions X (Proc.devRef .tc main_v3) = dstOf (X (Proc.devRef .tc main_arg3)) := by
  after_results_simp <;> rfl

set_option maxHeartbeats 2000000 in
/-- The normaliser column. -/
theorem before_column :
    beforeRegions X (Proc.devRef .tc main_v15)
      = normaliserColumn Facts₀.shapeCasts_S50000_S50000x1 (normOf (X (Proc.devRef .tc main_arg3))) := by
  after_results_simp <;> rfl

/-- The transposed weight. -/
theorem before_weight :
    beforeRegions X (Proc.devRef .tc main_v16)
      = transpose S512x256 [1, 0] (X (Proc.devRef .tc main_arg1)) Facts₀.transposes_S256x512_S512x256_1_0 := by
  after_results_simp <;> rfl

/-- The features are not written. -/
theorem before_features : beforeRegions X (Proc.devRef .tc main_arg0) = X (Proc.devRef .tc main_arg0) := by
  after_results_simp <;> rfl

/-- The bias is not written. -/
theorem before_bias : beforeRegions X (Proc.devRef .tc main_arg2) = X (Proc.devRef .tc main_arg2) := by
  after_results_simp <;> rfl

end Cert.KernelIdeal.Stages

end
-- ==== Proof.GraphSpec.lean ====
/-
  One graph-convolution layer with symmetric degree normalisation, written as formulas on the extended reals.

  A node `p` has features `x p`, a transform `wt` sends them to `∑ k, x p k · wt k q`, and every node carries a
  normaliser `d p` (the inverse square root of its in-degree, or 0 for an isolated node). Edge `e` reads the row its
  source index names and adds it onto the row its destination index names. Two arrangements of the same layer:

    • normalise at the nodes:  out n q = max ((∑ over edges e into n of (∑ k, x (src e) k · wt k q) · d (src e)) · d n + b q) 0
    • normalise at the edges:  out n q = max ((∑ over edges e into n of (∑ k, x (src e) k · wt k q) · (d (src e) · d n)) + b q) 0

  They agree when the transformed features and the normalisers are real numbers: the factor `d n` is common to all the
  edges into `n` and moves across the finite sum (`scale_through_sum`). At an infinity the move is not valid on the
  extended reals, which is why the entries are asked to be real.
-/
import Idealize.ShloMosaic.PureOps.Ideal.Laws
import Idealize.ShloMosaic.Lib.ValueIdx
import proofs.«137502_j3169685865283_2_alg».proof.Proof.LibGcnLayer

noncomputable section

open scoped BigOperators

namespace Cert.GraphConv

open Idealize.ShloMosaic Idealize.ShloMosaic.ValueIdx Cert.GcnLaw

/-- Entry `(p, q)` of node `p`'s transformed features scaled by the node's own normaliser, the normalisers given as a
    column: `(∑ k, x (p, k) · wt (k, q)) · dcol (p, 0)`. -/
def scaledAt (x : FVec Ideal ⟨2, ![50000, 512]⟩ .f32) (wt : FVec Ideal ⟨2, ![512, 256]⟩ .f32)
    (dcol : FVec Ideal ⟨2, ![50000, 1]⟩ .f32) (p : Fin 50000) (q : Fin 256) : EReal :=
  (∑ k : Fin 512, x (ix2 p k) * wt (ix2 k q)) * dcol (ix2 p (0 : Fin 1))

/-- The scaled transformed features as one array. -/
def scaledFeatures (x : FVec Ideal ⟨2, ![50000, 512]⟩ .f32) (wt : FVec Ideal ⟨2, ![512, 256]⟩ .f32)
    (dcol : FVec Ideal ⟨2, ![50000, 1]⟩ .f32) : FVec Ideal ⟨2, ![50000, 256]⟩ .f32 :=
  fun i => scaledAt x wt dcol (i 0) (i 1)

theorem scaledFeatures_apply (x : FVec Ideal ⟨2, ![50000, 512]⟩ .f32) (wt : FVec Ideal ⟨2, ![512, 256]⟩ .f32)
    (dcol : FVec Ideal ⟨2, ![50000, 1]⟩ .f32) (p : Fin 50000) (q : Fin 256) :
    scaledFeatures x wt dcol (ix2 p q) = scaledAt x wt dcol p q := rfl

/-- Entry `(p, q)` of the layer's last step: the aggregate scaled by the node's normaliser, plus the bias row,
    cut off below at zero: `max (agg (p, q) · dcol (p, 0) + brow (0, q)) 0`. -/
def biasReluAt (agg : FVec Ideal ⟨2, ![50000, 256]⟩ .f32) (dcol : FVec Ideal ⟨2, ![50000, 1]⟩ .f32)
    (brow : FVec Ideal ⟨2, ![1, 256]⟩ .f32) (p : Fin 50000) (q : Fin 256) : EReal :=
  max (agg (ix2 p q) * dcol (ix2 p (0 : Fin 1)) + brow (ix2 (0 : Fin 1) q)) 0

/-- The last step as one array. -/
def biasRelu (agg : FVec Ideal ⟨2, ![50000, 256]⟩ .f32) (dcol : FVec Ideal ⟨2, ![50000, 1]⟩ .f32)
    (brow : FVec Ideal ⟨2, ![1, 256]⟩ .f32) : FVec Ideal ⟨2, ![50000, 256]⟩ .f32 :=
  fun i => biasReluAt agg dcol brow (i 0) (i 1)

theorem biasRelu_apply (agg : FVec Ideal ⟨2, ![50000, 256]⟩ .f32) (dcol : FVec Ideal ⟨2, ![50000, 1]⟩ .f32)
    (brow : FVec Ideal ⟨2, ![1, 256]⟩ .f32) (p : Fin 50000) (q : Fin 256) :
    biasRelu agg dcol brow (ix2 p q) = biasReluAt agg dcol brow p q := rfl

/-- A factor common to all terms moves across a finite sum of products of real numbers:
    `(∑ e ∈ S, a e · s e) · t = ∑ e ∈ S, a e · (s e · t)`. -/
theorem scale_through_sum {E : Type*} (S : Finset E) (a s : E → EReal) (t : EReal)
    (ha : ∀ e, IsReal (a e)) (hs : ∀ e, IsReal (s e)) (ht : IsReal t) :
    (∑ e ∈ S, a e * s e) * t = ∑ e ∈ S, a e * (s e * t) := by
  choose a' ha' using ha
  choose s' hs' using hs
  obtain ⟨t', rfl⟩ := ht
  have hL : (∑ e ∈ S, a e * s e) * (t' : EReal) = (((∑ e ∈ S, a' e * s' e) * t' : ℝ) : EReal) := by
    rw [EReal.coe_mul, coe_sum]
    congr 1
    refine Finset.sum_congr rfl fun e _ => ?_
    rw [EReal.coe_mul, ha' e, hs' e]
  have hR : ∑ e ∈ S, a e * (s e * (t' : EReal)) = ((∑ e ∈ S, a' e * (s' e * t') : ℝ) : EReal) := by
    rw [coe_sum]
    refine Finset.sum_congr rfl fun e _ => ?_
    rw [EReal.coe_mul, EReal.coe_mul, ha' e, hs' e]
  rw [hL, hR, Finset.sum_mul]
  refine congrArg _ (Finset.sum_congr rfl fun e _ => ?_)
  ring

end Cert.GraphConv

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.RegionFeatures.lean ====
/-
  The first region of the graph-convolution layer, as one formula.

  The region walks the 50000 nodes in 50 blocks of 1000 rows. At block `t` it multiplies the block's rows of the node
  features `x` (1000 × 512) by the whole transposed weight matrix `wt` (512 × 256) and scales row `p` of the product by
  the node's normaliser `dcol (1000·t + p, 0)`; the result is written to rows `1000·t … 1000·t + 999` of the region's
  output array. Proved here, for whatever contents the three arrays have when the region starts:

    • entry `(p, q)` of what a block's computation leaves is `(∑ k, x₀ (p, k) · x₁ (k, q)) · x₂ (p, 0)` of the three
      blocks it reads (`features_payload_apply`);
    • block `t` of each array read at a block coordinate is the array read at row `1000·t + p`
      (`features_rows_block_apply`, `weight_block_apply`, `normaliser_block_apply`);
    • so what point `t` writes back is block `t` of `Cert.GraphConv.scaledFeatures x wt dcol` (`features_flushed_eq`);
    • the 50 blocks cover the output array, row `r` lying in block `r / 1000` (`features_cover`);
    • hence the output array after the region is `Cert.GraphConv.scaledFeatures x wt dcol` (`features_array`).
-/
import proofs.«137502_j3169685865283_2_alg».proof.Proof.Gen.KernelIdeal.Frame
import proofs.«137502_j3169685865283_2_alg».proof.Proof.GraphSpec
import proofs.«137502_j3169685865283_2_alg».proof.Proof.LibPlainMatmul
import proofs.«137502_j3169685865283_2_alg».proof.Proof.LibKeepdims
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- Entry `(p, q)` of what one block's computation produces from the blocks it reads: the row of `x0` against the column
    of `x1`, summed over the 512 shared coordinates, times the normaliser of row `p`. The narrowing of the operands'
    format before the product is the identity on the extended reals, and the product accumulates from zero. -/
theorem features_payload_apply (x0 : Vec Ideal S1000x512 .f32) (x1 : Vec Ideal S512x256 .f32) (x2 : Vec Ideal S1000x1 .f32)
    (p : Fin 1000) (q : Fin 256) :
    Gen.k0_pay1 (F := Ideal) x0 x1 x2 (ix2 p q) = (∑ k : Fin 512, x0 (ix2 p k) * x1 (ix2 k q)) * x2 (ix2 p (0 : Fin 1)) := by
  unfold Gen.k0_pay1
  refine (mulf_apply _ _ _).trans ?_
  refine congrArg₂ (· * ·) ?_ ?_
  · rw [shapeCast_self]
    exact Cert.PlainMatmul.matmul_zero_apply dot_S1000x512_S512x256_S1000x256_1_0_0_1_n_n_wf none
      (truncf .bf16 x0 bitsLt_bf16_f32) (truncf .bf16 x1 bitsLt_bf16_f32) p q
  · rw [shapeCast_self]
    exact Cert.Keepdims.broadcastTo_a1_ab_apply x2 broadcasts_S1000x1_S1000x256 p q

variable (V : (c : Dev nD) → (b : Ref sig .tc) → Buf (Elt Ideal) ((c : Thread nD τ).loc b))

/-- Both offsets of a whole-block access are zero. -/
theorem features_zero_offsets : (![0, 0] : Fin 2 → Nat) = fun _ => 0 := funext fun a => by fin_cases a <;> rfl

/-- The block index of each window at grid point `t`: the feature rows, the normaliser column and the result move down
    one block of 1000 rows per point; the weight matrix is one block, always the same. -/
theorem features_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block `t` of the node features at `(p, k)` is the array at row `1000·t + p`, column `k`. -/
theorem features_rows_block_apply (c : Dev nD) (t : Fin cfg0.N) (p : Fin 1000) (k : Fin 512) (P : Fin 50000)
    (hP : P.val = 1000 * t.val + p.val) :
    (Gen.iblk0 V c 0 t : Vec Ideal S1000x512 .f32) (ix2 p k) = (V c main_arg0 : S50000x512.Idx → Elt Ideal .f32) (ix2 P k) := by
  obtain ⟨e0, e1, -⟩ := features_block_indices t
  unfold Gen.iblk0
  rw [View.read_apply]
  show V c main_arg0 _ = V c main_arg0 _
  refine congrArg _ (funext fun a => Fin.ext ?_)
  match a with
  | ⟨0, _⟩ => show win0_0.index t (0 : Fin 2) * 1000 + 1 * p.val = P.val; rw [e0, hP]; omega
  | ⟨1, _⟩ => show win0_0.index t (1 : Fin 2) * 512 + 1 * k.val = k.val; rw [e1]; omega

/-- The weight window's one block is the whole matrix. -/
theorem weight_block_apply (c : Dev nD) (t : Fin cfg0.N) (k : Fin 512) (q : Fin 256) :
    (Gen.iblk0 V c 1 t : Vec Ideal S512x256 .f32) (ix2 k q) = (V c main_v16 : S512x256.Idx → Elt Ideal .f32) (ix2 k q) := by
  obtain ⟨-, -, e2, e3, -⟩ := features_block_indices t
  unfold Gen.iblk0
  rw [View.read_apply]
  show V c main_v16 _ = V c main_v16 _
  refine congrArg _ (funext fun a => Fin.ext ?_)
  match a with
  | ⟨0, _⟩ => show win0_1.index t (0 : Fin 2) * 512 + 1 * k.val = k.val; rw [e2]; omega
  | ⟨1, _⟩ => show win0_1.index t (1 : Fin 2) * 256 + 1 * q.val = q.val; rw [e3]; omega

/-- Block `t` of the normaliser column at `(p, 0)` is the column at row `1000·t + p`. -/
theorem normaliser_block_apply (c : Dev nD) (t : Fin cfg0.N) (p : Fin 1000) (u : Fin 1) (P : Fin 50000)
    (hP : P.val = 1000 * t.val + p.val) :
    (Gen.iblk0 V c 2 t : Vec Ideal S1000x1 .f32) (ix2 p u) = (V c main_v15 : S50000x1.Idx → Elt Ideal .f32) (ix2 P u) := by
  obtain ⟨-, -, -, -, e4, e5, -⟩ := features_block_indices t
  unfold Gen.iblk0
  rw [View.read_apply]
  show V c main_v15 _ = V c main_v15 _
  refine congrArg _ (funext fun a => Fin.ext ?_)
  match a with
  | ⟨0, _⟩ => show win0_2.index t (0 : Fin 2) * 1000 + 1 * p.val = P.val; rw [e4, hP]; omega
  | ⟨1, _⟩ => show win0_2.index t (1 : Fin 2) * 1 + 1 * u.val = u.val; rw [e5]; omega

/-- What grid point `t` writes back is block `t` of the scaled transformed features of the arrays the region finds. -/
theorem features_flushed_eq (c : Dev nD) (t : Fin cfg0.N) :
    (Gen.dat0 (F := Ideal) V c).flushed 3 t = ((cfg0.win 3).blk t).view.read (Elt Ideal)
      (Cert.GraphConv.scaledFeatures (V c main_arg0) (V c main_v16) (V c main_v15)) := by
  show (cfg0.win 3).cut (grid0.coords t) ((Gen.dat0 V c).after 3 t) = _
  rw [Gen.after0_3]
  unfold Gen.out0_3
  rw [View.canon_unit_zero features_zero_offsets]
  simp only [View.ld_unit_zero (S := S1000x512) features_zero_offsets, View.ld_unit_zero (S := S512x256) features_zero_offsets, View.ld_unit_zero (S := S1000x1) features_zero_offsets]
  funext j
  obtain ⟨p, q, rfl⟩ : ∃ (p : Fin 1000) (q : Fin 256), j = ix2 p q := ⟨j 0, j 1, eq_ix2 j⟩
  have hN : t.val < 50 := lt_of_lt_of_eq t.isLt Gen.N_0
  obtain ⟨P, hP⟩ : ∃ P : Fin 50000, P.val = 1000 * t.val + p.val := ⟨⟨1000 * t.val + p.val, by omega⟩, rfl⟩
  obtain ⟨-, -, -, -, -, -, e6, e7⟩ := features_block_indices t
  have hemb : ((cfg0.win 3).blk t).view.emb (ix2 p q) = (ix2 P q : S50000x256.Idx) := by
    funext a; apply Fin.ext
    match a with
    | ⟨0, _⟩ => show win0_3.index t (0 : Fin 2) * 1000 + 1 * p.val = P.val; rw [e6, hP]; omega
    | ⟨1, _⟩ => show win0_3.index t (1 : Fin 2) * 256 + 1 * q.val = q.val; rw [e7]; omega
  show Gen.k0_pay1 (Gen.iblk0 V c 0 t) (Gen.iblk0 V c 1 t) (Gen.iblk0 V c 2 t) (ix2 p q)
    = Cert.GraphConv.scaledFeatures (V c main_arg0) (V c main_v16) (V c main_v15) (((cfg0.win 3).blk t).view.emb (ix2 p q))
  refine (features_payload_apply _ _ _ p q).trans ?_
  refine Eq.trans ?_ (congrArg (Cert.GraphConv.scaledFeatures (V c main_arg0) (V c main_v16) (V c main_v15)) hemb.symm)
  refine Eq.trans ?_ (Cert.GraphConv.scaledFeatures_apply _ _ _ P q).symm
  unfold Cert.GraphConv.scaledAt
  refine congrArg₂ (· * ·) (Finset.sum_congr rfl fun k _ => congrArg₂ (· * ·) ?_ ?_) ?_
  · exact features_rows_block_apply V c t p k P hP
  · exact weight_block_apply V c t k q
  · exact normaliser_block_apply V c t p 0 P hP

/-- An index of the result array is in grid point `t`'s block iff each coordinate is in the block's range on its axis. -/
theorem features_mem_block (t : Fin cfg0.N) (i : S50000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v17).slice (win0_3.rect t)).set ↔ _
  rw [View.set_slice_whole, Rect.mem_set_unit]
  exact Iff.rfl

/-- Every index of the result array is in some point's block: row `r` is in the block of point `r / 1000`. -/
theorem features_cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 50 := Gen.N_0
  obtain ⟨t, ht⟩ : ∃ t : Fin cfg0.N, t.val = (i 0).val / 1000 :=
    ⟨⟨(i 0).val / 1000, (show (i 0).val / 1000 < 50 by omega).trans_eq hN.symm⟩, rfl⟩
  obtain ⟨-, -, -, -, -, -, e6, e7⟩ := features_block_indices t
  refine ⟨t, Gen.flush0_3 t, ?_⟩
  rw [features_mem_block]
  intro a
  match a with
  | ⟨0, _⟩ =>
    show win0_3.index t (0 : Fin 2) * 1000 ≤ (i 0).val ∧ (i 0).val < win0_3.index t (0 : Fin 2) * 1000 + 1000
    rw [e6, ht]; omega
  | ⟨1, _⟩ =>
    show win0_3.index t (1 : Fin 2) * 256 ≤ (i 1).val ∧ (i 1).val < win0_3.index t (1 : Fin 2) * 256 + 256
    rw [e7]; omega

/-- The first region's result array after its run: the scaled transformed features of the arrays the region finds. -/
theorem features_array (c : Dev nD) :
    (Gen.dat0 (F := Ideal) V c).arrAt 3 cfg0.N
      = Cert.GraphConv.scaledFeatures (V c main_arg0) (V c main_v16) (V c main_v15) :=
  (Gen.dat0 V c).arrAt_eq_of_cover 3 (Cert.GraphConv.scaledFeatures (V c main_arg0) (V c main_v16) (V c main_v15))
    (fun t _ => features_flushed_eq V c t) features_cover

end Cert.KernelIdeal.RegionValue

end
-- ==== Proof.RegionEpilogue.lean ====
/-
  The second region of the graph-convolution layer, as one formula.

  The region walks the 50000 nodes in 50 blocks of 1000 rows. At block `t` it scales row `p` of the block of the
  aggregate `agg` (1000 × 256) by the node's normaliser `dcol (1000·t + p, 0)`, adds the bias row `brow` (1 × 256) to every
  row and cuts the sum off below at zero; the result is written to rows `1000·t … 1000·t + 999` of the region's output
  array. Proved here, for whatever contents the three arrays have when the region starts:

    • entry `(p, q)` of what a block's computation leaves is `max (x₁ (p, q) · x₂ (p, 0) + x₀ (0, q)) 0` of the three blocks
      it reads (`epilogue_payload_apply`);
    • block `t` of each array read at a block coordinate is the array read at row `1000·t + p`
      (`aggregate_block_apply`, `epilogue_normaliser_block_apply`, `bias_block_apply`);
    • so what point `t` writes back is block `t` of `Cert.GraphConv.biasRelu agg dcol brow` (`epilogue_flushed_eq`);
    • the 50 blocks cover the output array, row `r` lying in block `r / 1000` (`epilogue_cover`);
    • hence the output array after the region is `Cert.GraphConv.biasRelu agg dcol brow` (`epilogue_array`).
-/
import proofs.«137502_j3169685865283_2_alg».proof.Proof.Gen.KernelIdeal.Frame
import proofs.«137502_j3169685865283_2_alg».proof.Proof.GraphSpec
import proofs.«137502_j3169685865283_2_alg».proof.Proof.LibKeepdims
import Idealize.ShloMosaic.Lib.ValueLayout
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- Entry `(p, q)` of what one block's computation produces from the blocks it reads: the aggregate's entry times the
    normaliser of row `p`, plus the bias of column `q`, cut off below at zero. -/
theorem epilogue_payload_apply (x0 : Vec Ideal S1x256 .f32) (x1 : Vec Ideal S1000x256 .f32) (x2 : Vec Ideal S1000x1 .f32)
    (p : Fin 1000) (q : Fin 256) :
    Gen.k1_pay1 (F := Ideal) x0 x1 x2 (ix2 p q) = max (x1 (ix2 p q) * x2 (ix2 p (0 : Fin 1)) + x0 (ix2 (0 : Fin 1) q)) 0 := by
  unfold Gen.k1_pay1
  refine (maximumf_apply _ _ _).trans ?_
  refine congrArg₂ max ?_ ?_
  · refine (addf_apply _ _ _).trans ?_
    refine congrArg₂ (· + ·) ?_ ?_
    · refine (mulf_apply _ _ _).trans ?_
      refine congrArg₂ (· * ·) ?_ ?_
      · rw [shapeCast_self]
      · rw [shapeCast_self]
        exact Cert.Keepdims.broadcastTo_a1_ab_apply x2 broadcasts_S1000x1_S1000x256 p q
    · rw [shapeCast_self, shapeCast_self]
      exact broadcastTo_1b_ab_apply x0 broadcasts_S1x256_S1000x256 p q
  · exact (broadcast_apply _ _).trans Ideal.ofBits_zero_f32

variable (V : (c : Dev nD) → (b : Ref sig .tc) → Buf (Elt Ideal) ((c : Thread nD τ).loc b))

/-- Both offsets of a whole-block access are zero. -/
theorem epilogue_zero_offsets : (![0, 0] : Fin 2 → Nat) = fun _ => 0 := funext fun a => by fin_cases a <;> rfl

/-- The block index of each window at grid point `t`: the aggregate, the normaliser column and the result move down one
    block of 1000 rows per point; the bias row is one block, always the same. -/
theorem epilogue_block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block `t` of the aggregate at `(p, q)` is the array at row `1000·t + p`, column `q`. -/
theorem aggregate_block_apply (c : Dev nD) (t : Fin cfg1.N) (p : Fin 1000) (q : Fin 256) (P : Fin 50000)
    (hP : P.val = 1000 * t.val + p.val) :
    (Gen.iblk1 V c 0 t : Vec Ideal S1000x256 .f32) (ix2 p q) = (V c main_v27 : S50000x256.Idx → Elt Ideal .f32) (ix2 P q) := by
  obtain ⟨e0, e1, -⟩ := epilogue_block_indices t
  unfold Gen.iblk1
  rw [View.read_apply]
  show V c main_v27 _ = V c main_v27 _
  refine congrArg _ (funext fun a => Fin.ext ?_)
  match a with
  | ⟨0, _⟩ => show win1_0.index t (0 : Fin 2) * 1000 + 1 * p.val = P.val; rw [e0, hP]; omega
  | ⟨1, _⟩ => show win1_0.index t (1 : Fin 2) * 256 + 1 * q.val = q.val; rw [e1]; omega

/-- Block `t` of the normaliser column at `(p, 0)` is the column at row `1000·t + p`. -/
theorem epilogue_normaliser_block_apply (c : Dev nD) (t : Fin cfg1.N) (p : Fin 1000) (u : Fin 1) (P : Fin 50000)
    (hP : P.val = 1000 * t.val + p.val) :
    (Gen.iblk1 V c 1 t : Vec Ideal S1000x1 .f32) (ix2 p u) = (V c main_v15 : S50000x1.Idx → Elt Ideal .f32) (ix2 P u) := by
  obtain ⟨-, -, e2, e3, -⟩ := epilogue_block_indices t
  unfold Gen.iblk1
  rw [View.read_apply]
  show V c main_v15 _ = V c main_v15 _
  refine congrArg _ (funext fun a => Fin.ext ?_)
  match a with
  | ⟨0, _⟩ => show win1_1.index t (0 : Fin 2) * 1000 + 1 * p.val = P.val; rw [e2, hP]; omega
  | ⟨1, _⟩ => show win1_1.index t (1 : Fin 2) * 1 + 1 * u.val = u.val; rw [e3]; omega

/-- The bias window's one block is the whole row. -/
theorem bias_block_apply (c : Dev nD) (t : Fin cfg1.N) (u : Fin 1) (q : Fin 256) :
    (Gen.iblk1 V c 2 t : Vec Ideal S1x256 .f32) (ix2 u q) = (V c main_v28 : S1x256.Idx → Elt Ideal .f32) (ix2 u q) := by
  obtain ⟨-, -, -, -, e4, e5, -⟩ := epilogue_block_indices t
  unfold Gen.iblk1
  rw [View.read_apply]
  show V c main_v28 _ = V c main_v28 _
  refine congrArg _ (funext fun a => Fin.ext ?_)
  match a with
  | ⟨0, _⟩ => show win1_2.index t (0 : Fin 2) * 1 + 1 * u.val = u.val; rw [e4]; omega
  | ⟨1, _⟩ => show win1_2.index t (1 : Fin 2) * 256 + 1 * q.val = q.val; rw [e5]; omega

/-- What grid point `t` writes back is block `t` of the layer's last step applied to the arrays the region finds. -/
theorem epilogue_flushed_eq (c : Dev nD) (t : Fin cfg1.N) :
    (Gen.dat1 (F := Ideal) V c).flushed 3 t = ((cfg1.win 3).blk t).view.read (Elt Ideal)
      (Cert.GraphConv.biasRelu (V c main_v27) (V c main_v15) (V c main_v28)) := by
  show (cfg1.win 3).cut (grid1.coords t) ((Gen.dat1 V c).after 3 t) = _
  rw [Gen.after1_3]
  unfold Gen.out1_3
  rw [View.canon_unit_zero epilogue_zero_offsets]
  simp only [View.ld_unit_zero (S := S1000x256) epilogue_zero_offsets, View.ld_unit_zero (S := S1000x1) epilogue_zero_offsets,
    View.ld_unit_zero (S := S1x256) epilogue_zero_offsets]
  funext j
  obtain ⟨p, q, rfl⟩ : ∃ (p : Fin 1000) (q : Fin 256), j = ix2 p q := ⟨j 0, j 1, eq_ix2 j⟩
  have hN : t.val < 50 := lt_of_lt_of_eq t.isLt Gen.N_1
  obtain ⟨P, hP⟩ : ∃ P : Fin 50000, P.val = 1000 * t.val + p.val := ⟨⟨1000 * t.val + p.val, by omega⟩, rfl⟩
  obtain ⟨-, -, -, -, -, -, e6, e7⟩ := epilogue_block_indices t
  have hemb : ((cfg1.win 3).blk t).view.emb (ix2 p q) = (ix2 P q : S50000x256.Idx) := by
    funext a; apply Fin.ext
    match a with
    | ⟨0, _⟩ => show win1_3.index t (0 : Fin 2) * 1000 + 1 * p.val = P.val; rw [e6, hP]; omega
    | ⟨1, _⟩ => show win1_3.index t (1 : Fin 2) * 256 + 1 * q.val = q.val; rw [e7]; omega
  show Gen.k1_pay1 (Gen.iblk1 V c 2 t) (Gen.iblk1 V c 0 t) (Gen.iblk1 V c 1 t) (ix2 p q)
    = Cert.GraphConv.biasRelu (V c main_v27) (V c main_v15) (V c main_v28) (((cfg1.win 3).blk t).view.emb (ix2 p q))
  refine (epilogue_payload_apply _ _ _ p q).trans ?_
  refine Eq.trans ?_ (congrArg (Cert.GraphConv.biasRelu (V c main_v27) (V c main_v15) (V c main_v28)) hemb.symm)
  refine Eq.trans ?_ (Cert.GraphConv.biasRelu_apply _ _ _ P q).symm
  unfold Cert.GraphConv.biasReluAt
  refine congrArg₂ max (congrArg₂ (· + ·) (congrArg₂ (· * ·) ?_ ?_) ?_) rfl
  · exact aggregate_block_apply V c t p q P hP
  · exact epilogue_normaliser_block_apply V c t p 0 P hP
  · exact bias_block_apply V c t 0 q

/-- An index of the result array is in grid point `t`'s block iff each coordinate is in the block's range on its axis. -/
theorem epilogue_mem_block (t : Fin cfg1.N) (i : S50000x256.Idx) :
    i ∈ ((cfg1.win 3).blk t).view.set ↔ ∀ a : Fin 2, win1_3.index t a * S1000x256.size a ≤ (i a).val
      ∧ (i a).val < win1_3.index t a * S1000x256.size a + S1000x256.size a := by
  show i ∈ ((View.whole main_v29).slice (win1_3.rect t)).set ↔ _
  rw [View.set_slice_whole, Rect.mem_set_unit]
  exact Iff.rfl

/-- Every index of the result array is in some point's block: row `r` is in the block of point `r / 1000`. -/
theorem epilogue_cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 50 := Gen.N_1
  obtain ⟨t, ht⟩ : ∃ t : Fin cfg1.N, t.val = (i 0).val / 1000 :=
    ⟨⟨(i 0).val / 1000, (show (i 0).val / 1000 < 50 by omega).trans_eq hN.symm⟩, rfl⟩
  obtain ⟨-, -, -, -, -, -, e6, e7⟩ := epilogue_block_indices t
  refine ⟨t, Gen.flush1_3 t, ?_⟩
  rw [epilogue_mem_block]
  intro a
  match a with
  | ⟨0, _⟩ =>
    show win1_3.index t (0 : Fin 2) * 1000 ≤ (i 0).val ∧ (i 0).val < win1_3.index t (0 : Fin 2) * 1000 + 1000
    rw [e6, ht]; omega
  | ⟨1, _⟩ =>
    show win1_3.index t (1 : Fin 2) * 256 ≤ (i 1).val ∧ (i 1).val < win1_3.index t (1 : Fin 2) * 256 + 256
    rw [e7]; omega

/-- The second region's result array after its run: the layer's last step applied to the arrays the region finds. -/
theorem epilogue_array (c : Dev nD) :
    (Gen.dat1 (F := Ideal) V c).arrAt 3 cfg1.N
      = Cert.GraphConv.biasRelu (V c main_v27) (V c main_v15) (V c main_v28) :=
  (Gen.dat1 V c).arrAt_eq_of_cover 3 (Cert.GraphConv.biasRelu (V c main_v27) (V c main_v15) (V c main_v28))
    (fun t _ => epilogue_flushed_eq V c t) epilogue_cover

end Cert.KernelIdeal.RegionValue

end
-- ==== Proof.KernelValue.lean ====
/-
  The kernel program's result as one function of its arguments.

  The result buffer is what the second region's write-backs leave. Walking back from there: the second region's array is
  the epilogue of the aggregate, the normaliser column and the bias row as the region finds them; the stretch before it
  built the aggregate from the first region's array and the source and destination vectors, and the bias row from the
  bias; the first region's array is the scaled transformed features of the features, the transposed weight and the
  normaliser column as IT finds them; and the five stretches before it computed those from the launch contents. Composed,
  the result is `kernelOut` of the four argument arrays.
-/
import proofs.«137502_j3169685865283_2_alg».proof.Proof.Gen.KernelIdeal.Frame
import proofs.«137502_j3169685865283_2_alg».proof.Proof.KernelStages
import proofs.«137502_j3169685865283_2_alg».proof.Proof.RegionFeatures
import proofs.«137502_j3169685865283_2_alg».proof.Proof.RegionEpilogue

set_option maxRecDepth 16384

noncomputable section

namespace Cert.KernelIdeal.ResultValue

open Cert.KernelIdeal Cert.KernelIdeal.Gen Cert.KernelIdeal.Stages Cert.KernelIdeal.RegionValue Cert.GraphConv
open Idealize.ShloMosaic Idealize.ShloMosaic.TcCoe Idealize.ShloMosaic.StableHlo Idealize.SL.Sem
open Idealize.ShloMosaic.Pipeline (Dat)

/-- The layer with the normalisers applied at the nodes, as the kernel program spells it: the epilogue of the aggregate
    of the scaled transformed features. -/
def kernelOut (x : FVec Ideal S50000x512 .f32) (w : FVec Ideal S256x512 .f32) (b : FVec Ideal S256 .f32)
    (ei : IVec S2x800000 32) : FVec Ideal S50000x256 .f32 :=
  biasRelu
    (aggregate Facts₀.scatter_S50000x256_S800000x1_S800000x256_1_0_0_1_wf Facts₀.gather_S50000x256_S800000x1_S800000x256_1_0_n_n_0_1_1256_wf
      Facts₀.bcast_S_S50000x256
      (scaledFeatures x (transpose S512x256 [1, 0] w Facts₀.transposes_S256x512_S512x256_1_0)
        (normaliserColumn Facts₀.shapeCasts_S50000_S50000x1 (normOf (F := Ideal) ei)))
      (idxColumn Facts₀.bcast_S800000_S800000x1_0 (wrapIdx Facts₀.bcast_S_S800000 (srcOf ei)))
      (idxColumn Facts₀.bcast_S800000_S800000x1_0 (dstOf ei)))
    (normaliserColumn Facts₀.shapeCasts_S50000_S50000x1 (normOf (F := Ideal) ei))
    (shapeCast S1x256 b Facts₀.shapeCasts_S256_S1x256)

variable (m : (ℓ : Loc nD τ sig) → Buf (Elt Ideal) ℓ) (ρ : Dev nD → PrngReg)

/-- The last boundary's contents at the result buffer, from the launch contents. -/
theorem result_from_launch (c : Dev nD) :
    W8 (F := Ideal) m ρ c (Proc.devRef .tc main_v29)
      = kernelOut (W0 m ρ c (Proc.devRef .tc main_arg0)) (W0 m ρ c (Proc.devRef .tc main_arg1))
          (W0 m ρ c (Proc.devRef .tc main_arg2)) (W0 m ρ c (Proc.devRef .tc main_arg3)) := by
  -- what the first region finds
  have e15 : V5 m ρ c main_v15 = normaliserColumn Facts₀.shapeCasts_S50000_S50000x1 (normOf (F := Ideal) (W0 m ρ c (Proc.devRef .tc main_arg3))) :=
    before_column (W0 m ρ c)
  have e16 : V5 m ρ c main_v16 = transpose S512x256 [1, 0] (W0 m ρ c (Proc.devRef .tc main_arg1)) Facts₀.transposes_S256x512_S512x256_1_0 :=
    before_weight (W0 m ρ c)
  have e0 : V5 m ρ c main_arg0 = W0 m ρ c (Proc.devRef .tc main_arg0) := before_features (W0 m ρ c)
  have e1 : W5 m ρ c (Proc.devRef .tc main_v1) = srcOf (W0 m ρ c (Proc.devRef .tc main_arg3)) := before_src (W0 m ρ c)
  have e3 : W5 m ρ c (Proc.devRef .tc main_v3) = dstOf (W0 m ρ c (Proc.devRef .tc main_arg3)) := before_dst (W0 m ρ c)
  have e2 : W5 m ρ c (Proc.devRef .tc main_arg2) = W0 m ρ c (Proc.devRef .tc main_arg2) := before_bias (W0 m ρ c)
  -- what the first region leaves
  have f17 : W6 m ρ c (Proc.devRef .tc main_v17)
      = scaledFeatures (W0 m ρ c (Proc.devRef .tc main_arg0))
          (transpose S512x256 [1, 0] (W0 m ρ c (Proc.devRef .tc main_arg1)) Facts₀.transposes_S256x512_S512x256_1_0)
          (normaliserColumn Facts₀.shapeCasts_S50000_S50000x1 (normOf (F := Ideal) (W0 m ρ c (Proc.devRef .tc main_arg3)))) := by
    rw [show W6 m ρ c (Proc.devRef .tc main_v17) = (dat0 (V5 m ρ) c).arrAt 3 cfg0.N from W6_arr m ρ c 3,
      features_array (V5 m ρ) c, e0, e16, e15]
  have f15 : W6 m ρ c (Proc.devRef .tc main_v15)
      = normaliserColumn Facts₀.shapeCasts_S50000_S50000x1 (normOf (F := Ideal) (W0 m ρ c (Proc.devRef .tc main_arg3))) :=
    ((W6_arr m ρ c 2).trans (((dat0 (V5 m ρ) c).arrAt_in 2 rfl _).trans (A_eq0 (V5 m ρ) c 2))).trans e15
  have f1 : W6 m ρ c (Proc.devRef .tc main_v1) = srcOf (W0 m ρ c (Proc.devRef .tc main_arg3)) :=
    (W6_of_ne m ρ c main_v1 (by decide)).trans e1
  have f3 : W6 m ρ c (Proc.devRef .tc main_v3) = dstOf (W0 m ρ c (Proc.devRef .tc main_arg3)) :=
    (W6_of_ne m ρ c main_v3 (by decide)).trans e3
  have f2 : W6 m ρ c (Proc.devRef .tc main_arg2) = W0 m ρ c (Proc.devRef .tc main_arg2) :=
    (W6_of_ne m ρ c main_arg2 (by decide)).trans e2
  -- what the second region finds
  have g27 : V7 m ρ c main_v27
      = aggregate (F := Ideal) Facts₀.scatter_S50000x256_S800000x1_S800000x256_1_0_0_1_wf Facts₀.gather_S50000x256_S800000x1_S800000x256_1_0_n_n_0_1_1256_wf
          Facts₀.bcast_S_S50000x256 (W6 m ρ c (Proc.devRef .tc main_v17))
          (idxColumn Facts₀.bcast_S800000_S800000x1_0 (wrapIdx Facts₀.bcast_S_S800000 (W6 m ρ c (Proc.devRef .tc main_v1))))
          (idxColumn Facts₀.bcast_S800000_S800000x1_0 (W6 m ρ c (Proc.devRef .tc main_v3))) :=
    between_aggregate (W6 m ρ c)
  have g15 : V7 m ρ c main_v15 = W6 m ρ c (Proc.devRef .tc main_v15) := between_column (W6 m ρ c)
  have g28 : V7 m ρ c main_v28 = shapeCast S1x256 (W6 m ρ c (Proc.devRef .tc main_arg2)) Facts₀.shapeCasts_S256_S1x256 :=
    between_bias (W6 m ρ c)
  -- what the second region leaves
  rw [show W8 m ρ c (Proc.devRef .tc main_v29) = (dat1 (V7 m ρ) c).arrAt 3 cfg1.N from W8_arr m ρ c 3,
    epilogue_array (V7 m ρ) c, g27, g15, g28, f17, f15, f1, f3, f2]
  rfl

/-- The same from the launch memory: a buffer's launch contents are the memory's. -/
theorem result_eq (c : Dev nD) :
    W8 (F := Ideal) m ρ c (Proc.devRef .tc main_v29)
      = kernelOut (m ((c.tc : Thread nD τ).loc main_arg0)) (m ((c.tc : Thread nD τ).loc main_arg1))
          (m ((c.tc : Thread nD τ).loc main_arg2)) (m ((c.tc : Thread nD τ).loc main_arg3)) :=
  result_from_launch m ρ c

end Cert.KernelIdeal.ResultValue

end
-- ==== Proof.FiniteInputs.lean ====
/-
  What the precondition says of the float inputs: every entry is a real number.

  The precondition is the conjunction of three tests "all entries of the array have absolute value below +∞", one per
  float input. On the extended reals `|x| < +∞` holds exactly of the real numbers: at either infinity the absolute value
  is +∞ itself. So under the precondition every entry of the feature matrix and of the weight matrix is real — which is
  what lets a common factor move across the sums of the layer.
-/
import proofs.«137502_j3169685865283_2_alg».proof.Pre_finite_inputs
import proofs.«137502_j3169685865283_2_alg».proof.Proof.LibGcnLayer
import Idealize.ShloMosaic.Lib.ReduceAll
import Idealize.ShloMosaic.Lib.ValueIdx
import Idealize.ShloMosaic.PureOps.Ideal.Laws

noncomputable section

namespace Cert.Pre_finite_inputs.Decode

open Idealize.ShloMosaic Cert.Pre_finite_inputs Cert.GcnLaw

variable [Cert.Pre_finite_inputs.Facts]
open Cert.Pre_finite_inputs.Facts

instance : Subsingleton S_.Idx := ⟨fun a b => funext fun d => d.elim0⟩

/-- The f32 word of +∞ denotes the top element. -/
theorem ofBits_inf : Ideal.ofBits .f32 0x7F800000#32 = (⊤ : EReal) := by
  simp [Ideal.ofBits, Ideal.ieee]

/-- An extended real whose absolute value is below +∞ is a real number. -/
theorem isReal_of_abs_lt_top (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

/-- Under the precondition every entry of the first two float inputs is real. -/
theorem real_of_pre (x0 : FVec Ideal S50000x512 .f32) (x1 : FVec Ideal S256x512 .f32) (x2 : FVec Ideal S256 .f32)
    (x3 : IVec S2x800000 32) (h : fn (F := Ideal) x0 x1 x2 x3 = fun _ => 1#1) :
    (∀ i, IsReal (x0 i)) ∧ (∀ i, IsReal (x1 i)) := by
  have h0 := congrFun h ValueIdx.ix0
  dsimp only [fn] at h0
  obtain ⟨h01, -⟩ := IntOp.andi_eq_one.1 h0
  obtain ⟨ha, hb⟩ := IntOp.andi_eq_one.1 h01
  refine ⟨fun i => ?_, fun i => ?_⟩
  · have e := Host.reduce_andi_all _ _ _ _ _ ha i
    refine isReal_of_abs_lt_top (x0 i) ?_
    rw [← ofBits_inf]
    exact e
  · have e := Host.reduce_andi_all _ _ _ _ _ hb i
    refine isReal_of_abs_lt_top (x1 i) ?_
    rw [← ofBits_inf]
    exact e

end Cert.Pre_finite_inputs.Decode

end
-- ==== Proof.LibGraphAggregate.lean ====
/-
  A weighted neighbourhood sum read at an entry.

  A graph layer aggregates the rows of a feature matrix `h : [N, C]` along edges: edge `e` reads the row its source
  index names, scales it by the edge's weight `wt e`, and adds it onto the row its destination index names, all
  destinations starting from zero. As host operations this is a row gather at a column of source indices, a product
  with the weights sent to a column `[E] → [E, 1]` and then across the `C` columns, and a row scatter-add into the
  zero matrix at a column of destination indices. Read at `(v, c)` on the extended reals it is

      Σ over the edges e that land on v of  h (row read by e, c) · wt e,

  the same formula at every width `C`: column `c` of the aggregate depends on column `c` of `h` alone. The dimension
  records are the literal ones of the row gather and row scatter, over any proof of their conditions.
-/
import Idealize.ShloMosaic.PureOps.Ideal.Laws
import Idealize.ShloMosaic.Lib.ValueIdx
import Idealize.ShloMosaic.Lib.Pipeline.Value
import proofs.«137502_j3169685865283_2_alg».proof.Proof.LibRowGatherScatter

noncomputable section

open scoped BigOperators

namespace Idealize.ShloMosaic.RowOps

open Idealize.ShloMosaic Idealize.ShloMosaic.ValueIdx

/-- A vector of `E` entries sent to a column `[E, 1]` and then across `C` columns holds entry `e` all along row `e`. -/
theorem weightColumns_apply {α : Type} {E C : Nat} (hE : E ≠ 1)
    (b1 : (⟨1, ![E]⟩ : Shape).BroadcastsInDim ⟨2, ![E, 1]⟩ ![0])
    (b2 : (⟨2, ![E, 1]⟩ : Shape).BroadcastsInDim ⟨2, ![E, C]⟩ ![0, 1])
    (wt : (⟨1, ![E]⟩ : Shape).Idx → α) (e : Fin E) (c : Fin C) :
    broadcastInDim ⟨2, ![E, C]⟩ ![0, 1] b2 (broadcastInDim ⟨2, ![E, 1]⟩ ![0] b1 wt) (ix2 e c) = wt (ix1 e) := by
  rw [broadcastInDim_apply _ b2 _ (ix2 e c) (ix2 e (0 : Fin 1)) (fun a => by
        match a with
        | ⟨0, _⟩ => show e.val = if E = 1 then 0 else e.val; rw [if_neg hE]
        | ⟨1, _⟩ => show 0 = if (1 : Nat) = 1 then 0 else c.val; rw [if_pos rfl]),
    broadcastInDim_apply _ b1 _ (ix2 e (0 : Fin 1)) (ix1 e) (fun a => by
        match a with
        | ⟨0, _⟩ => show e.val = if E = 1 then 0 else e.val; rw [if_neg hE])]

/-- The f32 zero pattern sent to every entry of a matrix is the number zero at every entry. -/
theorem zeroMatrix_apply {N C : Nat}
    (bz : (⟨0, ![]⟩ : Shape).BroadcastsInDim ⟨2, ![N, C]⟩ ![]) (i : (⟨2, ![N, C]⟩ : Shape).Idx) :
    broadcastInDim ⟨2, ![N, C]⟩ ![] bz (constant (F := Ideal) ⟨0, ![]⟩ .f32 0x00000000#32) i = (0 : EReal) := by
  rw [broadcastInDim_apply _ bz _ i (fun a => a.elim0) (fun a => a.elim0)]
  show Ideal.ofBits .f32 0x00000000#32 = 0
  exact Ideal.ofBits_zero_f32

/-- THE AGGREGATE READ AT `(v, c)`: the sum, over the edges whose destination index is `v`, of entry `c` of the
    row the edge's source index reads, times the edge's weight. -/
theorem aggregate_apply {N E C w : Nat} (hN : 0 < N) (hE : E ≠ 1)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (bz : (⟨0, ![]⟩ : Shape).BroadcastsInDim ⟨2, ![N, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (src dst : IVec ⟨2, ![E, 1]⟩ w) (wt : FVec Ideal ⟨1, ![E]⟩ .f32) (h : FVec Ideal ⟨2, ![N, C]⟩ .f32)
    (v : Fin N) (c : Fin C) :
    Host.scatterAdd (F := Ideal) (scatterRowsDims N E C wfs)
        (broadcastInDim ⟨2, ![N, C]⟩ ![] bz (constant (F := Ideal) ⟨0, ![]⟩ .f32 0x00000000#32)) dst
        (mulf (Host.gather (gatherRowsDims N E C wfg) h src)
          (broadcastInDim ⟨2, ![E, C]⟩ ![0, 1] b2 (broadcastInDim ⟨2, ![E, 1]⟩ ![0] b1 wt))) (ix2 v c)
      = ∑ e ∈ Finset.univ.filter (fun e : Fin E => lands dst e v), h (ix2 (pickRow hN src e) c) * wt (ix1 e) := by
  rw [scatterAdd_rows_apply wfs, zeroMatrix_apply, zero_add]
  refine Finset.sum_congr rfl fun e _ => ?_
  show FloatOps.mulf (Host.gather (gatherRowsDims N E C wfg) h src (ix2 e c))
      (broadcastInDim ⟨2, ![E, C]⟩ ![0, 1] b2 (broadcastInDim ⟨2, ![E, 1]⟩ ![0] b1 wt) (ix2 e c)) = _
  rw [gather_rows_apply hN wfg, weightColumns_apply hE b1 b2, Ideal.mulf_def]

end Idealize.ShloMosaic.RowOps

end
-- ==== Proof.ReferenceEntry.lean ====
/-
  The reference's result read at an entry.

  The reference computes a graph-convolution layer as a host program: the transformed features h = x · Wᵀ, a weight
  per edge (the product of the normaliser at the edge's source and at its destination), the rows of h gathered along
  the edges' sources and scaled by the weights, a segment sum of those rows over the edges' destinations, a bias row
  added, and max(·, 0). Read at node n and output feature j, on the extended reals, its result is

      max ( Σ over the edges e that land on n of  (Σ_k x(s e, k) · W(j, k)) · (d(s' e) · d(t' e))  +  b(j) ,  0 ),

  where an edge lands on n when its destination index is n, s e is the row the edge's source index reads in the
  feature gather, s' e and t' e are the rows its wrapped source and destination indices read in the normaliser
  vector d, and the index columns and d are left as the stages of the program that compute them.
-/
import proofs.«137502_j3169685865283_2_alg».proof.Proof.RefRead
import proofs.«137502_j3169685865283_2_alg».proof.Proof.LibRowGatherScatter
import proofs.«137502_j3169685865283_2_alg».proof.Proof.LibGraphAggregate
import proofs.«137502_j3169685865283_2_alg».proof.Proof.LibPlainMatmul

noncomputable section

open scoped BigOperators

namespace Cert.ReferenceIdeal.Entry

open Idealize.ShloMosaic Idealize.ShloMosaic.ValueIdx Idealize.ShloMosaic.RowOps Cert.ReferenceIdeal Cert.ReferenceIdeal.ReadP
open Cert.ReferenceIdeal.Gen

/-- There is at least one node. -/
theorem N_pos : 0 < 50000 := by decide

/-- The weight of edge `e`: the normaliser at the row its source index reads times the normaliser at the row its
    destination index reads. -/
theorem weight_apply (x3 : (⟨S2x800000, .i32⟩ : BufTy).Contents (Elt Ideal)) (e : Fin 800000) :
    val_main_v31 (F := Ideal) x3 (ix1 e)
      = val_main_v16 (F := Ideal) x3 (ix1 (pickRow (N := 50000) N_pos (val_main_v22 (F := Ideal) x3) e))
        * val_main_v16 (F := Ideal) x3 (ix1 (pickRow (N := 50000) N_pos (val_main_v29 (F := Ideal) x3) e)) := by
  rw [val_main_v31_apply]
  unfold val_main_v23 val_main_v30
  generalize val_main_v16 (F := Ideal) x3 = d
  generalize val_main_v22 (F := Ideal) x3 = s
  generalize val_main_v29 (F := Ideal) x3 = t
  have hs : Host.gather gather_S50000_S800000x1_S800000_n_0_n_n_0_1_1 d s (ix1 e) = d (ix1 (pickRow N_pos s e)) :=
    gather_vec_apply N_pos _ d s e
  have ht : Host.gather gather_S50000_S800000x1_S800000_n_0_n_n_0_1_1 d t (ix1 e) = d (ix1 (pickRow N_pos t e)) :=
    gather_vec_apply N_pos _ d t e
  rw [hs, ht, Ideal.mulf_def]

/-- The transformed features at `(r, j)`: row `r` of `x` against row `j` of the weight matrix. -/
theorem features_apply (x0 : (⟨S50000x512, .f32⟩ : BufTy).Contents (Elt Ideal)) (x1 : (⟨S256x512, .f32⟩ : BufTy).Contents (Elt Ideal))
    (r : Fin 50000) (j : Fin 256) :
    val_main_v5 (F := Ideal) x0 x1 (ix2 r j) = ∑ k : Fin 512, x0 (ix2 r k) * x1 (ix2 j k) := by
  rw [val_main_v5_apply]
  refine Finset.sum_congr rfl fun k _ => ?_
  rw [val_main_v4_apply]
  have el : lidx_main_v5 (ix2 r j) k = ix2 r k :=
    funext fun a => Fin.ext (by match a with | ⟨0, _⟩ => rfl | ⟨1, _⟩ => rfl)
  have er : idx_main_v4 (ridx_main_v5 (ix2 r j) k) = ix2 j k :=
    funext fun a => Fin.ext (by match a with | ⟨0, _⟩ => rfl | ⟨1, _⟩ => rfl)
  rw [el, er]

/-- The aggregate at `(n, j)`: over the edges that land on `n`, the transformed features at the row the edge's source
    index reads, times the edge's weight. -/
theorem aggregate_entry (x0 : (⟨S50000x512, .f32⟩ : BufTy).Contents (Elt Ideal)) (x1 : (⟨S256x512, .f32⟩ : BufTy).Contents (Elt Ideal))
    (x3 : (⟨S2x800000, .i32⟩ : BufTy).Contents (Elt Ideal)) (n : Fin 50000) (j : Fin 256) :
    val_main_v44 (F := Ideal) x0 x1 x3 (ix2 n j)
      = ∑ e ∈ Finset.univ.filter (fun e : Fin 800000 => lands (val_main_v43 (F := Ideal) x3) e n),
          val_main_v5 (F := Ideal) x0 x1 (ix2 (pickRow (N := 50000) N_pos (val_main_v37 (F := Ideal) x3) e) j)
            * val_main_v31 (F := Ideal) x3 (ix1 e) := by
  unfold val_main_v44 val_main_v41 val_main_v40 val_main_v39 val_main_v42 val_main_cst_10 val_main_v38
  generalize val_main_v43 (F := Ideal) x3 = dst
  generalize val_main_v37 (F := Ideal) x3 = src
  generalize val_main_v31 (F := Ideal) x3 = wt
  generalize val_main_v5 (F := Ideal) x0 x1 = h
  exact aggregate_apply (N := 50000) (E := 800000) (C := 256) N_pos (by decide) _ _ _ _ _ src dst wt h n j

/-- The aggregate at `(n, j)` with the transformed features and the weights opened. -/
theorem aggregate_entry_open (x0 : (⟨S50000x512, .f32⟩ : BufTy).Contents (Elt Ideal)) (x1 : (⟨S256x512, .f32⟩ : BufTy).Contents (Elt Ideal))
    (x3 : (⟨S2x800000, .i32⟩ : BufTy).Contents (Elt Ideal)) (n : Fin 50000) (j : Fin 256) :
    val_main_v44 (F := Ideal) x0 x1 x3 (ix2 n j)
      = ∑ e ∈ Finset.univ.filter (fun e : Fin 800000 => lands (val_main_v43 (F := Ideal) x3) e n),
          (∑ k : Fin 512, x0 (ix2 (pickRow (N := 50000) N_pos (val_main_v37 (F := Ideal) x3) e) k) * x1 (ix2 j k))
            * (val_main_v16 (F := Ideal) x3 (ix1 (pickRow (N := 50000) N_pos (val_main_v22 (F := Ideal) x3) e))
               * val_main_v16 (F := Ideal) x3 (ix1 (pickRow (N := 50000) N_pos (val_main_v29 (F := Ideal) x3) e))) := by
  rw [aggregate_entry]
  refine Finset.sum_congr rfl fun e _ => ?_
  rw [features_apply, weight_apply]

/-- THE REFERENCE'S RESULT AT `(n, j)`: the aggregate plus the bias at `j`, cut off below at zero. -/
theorem reference_entry (x0 : (⟨S50000x512, .f32⟩ : BufTy).Contents (Elt Ideal)) (x1 : (⟨S256x512, .f32⟩ : BufTy).Contents (Elt Ideal))
    (x2 : (⟨S256, .f32⟩ : BufTy).Contents (Elt Ideal)) (x3 : (⟨S2x800000, .i32⟩ : BufTy).Contents (Elt Ideal)) (n : Fin 50000) (j : Fin 256) :
    val_main_v48 (F := Ideal) x0 x1 x2 x3 (ix2 n j)
      = max ((∑ e ∈ Finset.univ.filter (fun e : Fin 800000 => lands (val_main_v43 (F := Ideal) x3) e n),
                (∑ k : Fin 512, x0 (ix2 (pickRow (N := 50000) N_pos (val_main_v37 (F := Ideal) x3) e) k) * x1 (ix2 j k))
                  * (val_main_v16 (F := Ideal) x3 (ix1 (pickRow (N := 50000) N_pos (val_main_v22 (F := Ideal) x3) e))
                     * val_main_v16 (F := Ideal) x3 (ix1 (pickRow (N := 50000) N_pos (val_main_v29 (F := Ideal) x3) e))))
              + x2 (ix1 j)) 0 := by
  have eb : idx_main_v45 (idx_main_v46 (ix2 n j)) = ix1 j :=
    funext fun a => Fin.ext (by match a with | ⟨0, _⟩ => rfl)
  rw [val_main_v48_apply, val_main_v47_apply, val_main_call2_v0_apply, val_main_call2_cst_apply, val_main_v46_apply,
    val_main_v45_apply, aggregate_entry_open, eb, Ideal.maximumf_def, Ideal.addf_def, Ideal.ofBits_def, Ideal.ofBits_zero_f32]

end Cert.ReferenceIdeal.Entry

end
-- ==== Proof.ReferenceStages.lean ====
/-
  The reference's index columns and normaliser vector are the layer's named steps.

  The reference computes the destination column (for the scatter and, wrapped, for reading the normalisers), the source
  column (wrapped; once for the normaliser gather and once for the feature gather) and the normaliser vector from the
  edge list by the same host steps as any program that spells the layer: each stage of its reading is the named step,
  the operations being the same ones in the same order.
-/
import proofs.«137502_j3169685865283_2_alg».proof.Proof.RefRead
import proofs.«137502_j3169685865283_2_alg».proof.Proof.GraphStages

set_option maxRecDepth 16384

noncomputable section

namespace Cert.ReferenceIdeal.Stages

open Cert.ReferenceIdeal Cert.ReferenceIdeal.ReadP Cert.GraphConv
open Idealize.ShloMosaic

variable {F : FTy → Type} [FloatOps F]

/-- The destination vector of the edge list. -/
abbrev dstOf (ei : IVec E2 32) : IVec Ev 32 := edgeRow ![1, 0] Facts₀.slices_S2x800000_S1x800000_1_0 Facts₀.shapeCasts_S1x800000_S800000 ei
/-- The source vector of the edge list. -/
abbrev srcOf (ei : IVec E2 32) : IVec Ev 32 := edgeRow ![0, 0] Facts₀.slices_S2x800000_S1x800000_0_0 Facts₀.shapeCasts_S1x800000_S800000 ei
/-- The normaliser vector of the edge list. -/
abbrev normOf (ei : IVec E2 32) : FVec F Nv .f32 :=
  normaliser Facts₀.bcast_S_S50000 (degree Facts₀.scatter_S50000_S800000x1_S800000_n_0_0_1_wf Facts₀.bcast_S_S50000 Facts₀.bcast_S_S800000
    (idxColumn Facts₀.bcast_S800000_S800000x1_0 (dstOf ei)))

/-- The scatter's destination column. -/
theorem dst_column (x3 : IVec E2 32) :
    val_main_v43 (F := F) x3 = idxColumn Facts₀.bcast_S800000_S800000x1_0 (dstOf x3) := rfl

/-- The wrapped destination column, at which the normalisers are read. -/
theorem dst_wrapped_column (x3 : IVec E2 32) :
    val_main_v29 (F := F) x3 = idxColumn Facts₀.bcast_S800000_S800000x1_0 (wrapIdx Facts₀.bcast_S_S800000 (dstOf x3)) := rfl

/-- The wrapped source column of the normaliser gather. -/
theorem src_column_norm (x3 : IVec E2 32) :
    val_main_v22 (F := F) x3 = idxColumn Facts₀.bcast_S800000_S800000x1_0 (wrapIdx Facts₀.bcast_S_S800000 (srcOf x3)) := rfl

/-- The wrapped source column of the feature gather. -/
theorem src_column_features (x3 : IVec E2 32) :
    val_main_v37 (F := F) x3 = idxColumn Facts₀.bcast_S800000_S800000x1_0 (wrapIdx Facts₀.bcast_S_S800000 (srcOf x3)) := rfl

/-- The normaliser vector. -/
theorem norm_vector (x3 : IVec E2 32) : val_main_v16 (F := F) x3 = normOf x3 := rfl

end Cert.ReferenceIdeal.Stages

end
-- ==== Proof.KernelEntry.lean ====
/-
  The kernel program's result read at an entry.

  Entry `(n, j)` of `kernelOut`: the epilogue reads the aggregate at `(n, j)`, the normaliser of node `n` and the bias of
  feature `j`; the aggregate at `(n, j)` is the sum over the edges landing on `n` of entry `j` of the scaled transformed
  features of the row the edge's source reads; and that entry is the transformed feature times the source's normaliser,
  the transposed weight read back as the weight: `wt (k, j) = w (j, k)`.
-/
import proofs.«137502_j3169685865283_2_alg».proof.Proof.KernelValue
import Idealize.ShloMosaic.Lib.ValueLayout

noncomputable section

open scoped BigOperators

namespace Cert.KernelIdeal.ResultValue

open Cert.KernelIdeal Cert.KernelIdeal.Stages Cert.GraphConv
open Idealize.ShloMosaic Idealize.ShloMosaic.ValueIdx Idealize.ShloMosaic.RowOps

/-- The bias viewed as a row reads, at `(0, j)`, the bias at `j`. -/
theorem biasRow_apply (b : FVec Ideal S256 .f32) (j : Fin 256) :
    shapeCast S1x256 b Facts₀.shapeCasts_S256_S1x256 (ix2 (0 : Fin 1) j) = b (ix1 j) := by
  refine shapeCast_apply b Facts₀.shapeCasts_S256_S1x256 (ix2 (0 : Fin 1) j) (ix1 j) ?_
  rw [Shape.rowMajor_val_two, Shape.rowMajor_val_one]
  show j.val = 0 * 256 + j.val
  omega

/-- A scaled transformed feature, with the weight read through its transpose and the normaliser through its column. -/
theorem scaled_entry (x : FVec Ideal S50000x512 .f32) (w : FVec Ideal S256x512 .f32) (d : FVec Ideal Nv .f32)
    (p : Fin 50000) (j : Fin 256) :
    scaledFeatures x (transpose S512x256 [1, 0] w Facts₀.transposes_S256x512_S512x256_1_0)
        (normaliserColumn Facts₀.shapeCasts_S50000_S50000x1 d) (ix2 p j)
      = (∑ k : Fin 512, x (ix2 p k) * w (ix2 j k)) * d (ix1 p) := by
  rw [scaledFeatures_apply]
  unfold scaledAt
  rw [normaliserColumn_apply]
  refine congrArg (· * d (ix1 p)) (Finset.sum_congr rfl fun k _ => ?_)
  rw [transpose_ix2_apply w Facts₀.transposes_S256x512_S512x256_1_0 k j]

/-- THE KERNEL PROGRAM'S RESULT AT `(n, j)`. -/
theorem kernelOut_apply (x : FVec Ideal S50000x512 .f32) (w : FVec Ideal S256x512 .f32) (b : FVec Ideal S256 .f32)
    (ei : IVec S2x800000 32) (n : Fin 50000) (j : Fin 256) :
    kernelOut x w b ei (ix2 n j)
      = max ((∑ e ∈ Finset.univ.filter (fun e : Fin 800000 => lands (idxColumn Facts₀.bcast_S800000_S800000x1_0 (dstOf ei)) e n),
            (∑ k : Fin 512, x (ix2 (pickRow (N := 50000) (by decide)
                (idxColumn Facts₀.bcast_S800000_S800000x1_0 (wrapIdx Facts₀.bcast_S_S800000 (srcOf ei))) e) k) * w (ix2 j k))
              * normOf (F := Ideal) ei (ix1 (pickRow (N := 50000) (by decide)
                (idxColumn Facts₀.bcast_S800000_S800000x1_0 (wrapIdx Facts₀.bcast_S_S800000 (srcOf ei))) e)))
          * normOf (F := Ideal) ei (ix1 n) + b (ix1 j)) 0 := by
  unfold kernelOut
  rw [biasRelu_apply]
  unfold biasReluAt
  rw [aggregate_at, normaliserColumn_apply, biasRow_apply]
  have hsum : (∑ e ∈ Finset.univ.filter (fun e : Fin 800000 => lands (idxColumn Facts₀.bcast_S800000_S800000x1_0 (dstOf ei)) e n),
        scaledFeatures x (transpose S512x256 [1, 0] w Facts₀.transposes_S256x512_S512x256_1_0)
          (normaliserColumn Facts₀.shapeCasts_S50000_S50000x1 (normOf (F := Ideal) ei))
          (ix2 (pickRow (N := 50000) (by decide)
            (idxColumn Facts₀.bcast_S800000_S800000x1_0 (wrapIdx Facts₀.bcast_S_S800000 (srcOf ei))) e) j))
      = ∑ e ∈ Finset.univ.filter (fun e : Fin 800000 => lands (idxColumn Facts₀.bcast_S800000_S800000x1_0 (dstOf ei)) e n),
          (∑ k : Fin 512, x (ix2 (pickRow (N := 50000) (by decide)
              (idxColumn Facts₀.bcast_S800000_S800000x1_0 (wrapIdx Facts₀.bcast_S_S800000 (srcOf ei))) e) k) * w (ix2 j k))
            * normOf (F := Ideal) ei (ix1 (pickRow (N := 50000) (by decide)
              (idxColumn Facts₀.bcast_S800000_S800000x1_0 (wrapIdx Facts₀.bcast_S_S800000 (srcOf ei))) e)) :=
    Finset.sum_congr rfl fun e _ => scaled_entry x w (normOf (F := Ideal) ei) _ j
  rw [hsum]

end Cert.KernelIdeal.ResultValue

end
-- ==== Proof.LayerBridge.lean ====
/-
  The two arrangements of the layer give the same entry.

  With the normalisers applied at the nodes, entry `(n, j)` of the result is
      max ((∑ over edges e landing on n of (∑ k, x (g e, k) · w (j, k)) · d (g e)) · d n + b j) 0,
  and with the normalisers applied at the edges it is
      max ((∑ over edges e landing on n of (∑ k, x (g e, k) · w (j, k)) · (d (g e) · d (g' e))) + b j) 0,
  where `g e` is the row the edge's source index reads and `g' e` the row its (wrapped) destination index reads. An edge
  that lands on `n` has `g' e = n`, so the second sum has the common factor `d n` in every term; the features and the
  weights are real by hypothesis and the normalisers are real, so the factor moves across the sum.
-/
import proofs.«137502_j3169685865283_2_alg».proof.Proof.GraphSpec
import proofs.«137502_j3169685865283_2_alg».proof.Proof.LibRowGatherScatter

noncomputable section

open scoped BigOperators

namespace Cert.GraphConv

open Idealize.ShloMosaic Idealize.ShloMosaic.ValueIdx Idealize.ShloMosaic.RowOps Cert.GcnLaw

/-- A transformed feature is real when the features and the weights are. -/
theorem isReal_transformed (x : FVec Ideal ⟨2, ![50000, 512]⟩ .f32) (w : FVec Ideal ⟨2, ![256, 512]⟩ .f32)
    (hx : ∀ i, IsReal (x i)) (hw : ∀ i, IsReal (w i)) (p : Fin 50000) (j : Fin 256) :
    IsReal (∑ k : Fin 512, x (ix2 p k) * w (ix2 j k)) :=
  IsReal.sum _ _ fun k _ => (hx _).mul (hw _)

/-- THE TWO ARRANGEMENTS AGREE at every entry. -/
theorem arrangements_agree (x : FVec Ideal ⟨2, ![50000, 512]⟩ .f32) (w : FVec Ideal ⟨2, ![256, 512]⟩ .f32)
    (b : FVec Ideal ⟨1, ![256]⟩ .f32) (d : FVec Ideal ⟨1, ![50000]⟩ .f32) (src dst dstW : IVec ⟨2, ![800000, 1]⟩ 32)
    (hx : ∀ i, IsReal (x i)) (hw : ∀ i, IsReal (w i)) (hd : ∀ i, IsReal (d i))
    (hwrap : ∀ (e : Fin 800000) (n : Fin 50000), lands dst e n → pickRow (N := 50000) (by decide) dstW e = n)
    (n : Fin 50000) (j : Fin 256) :
    max ((∑ e ∈ Finset.univ.filter (fun e : Fin 800000 => lands dst e n),
            (∑ k : Fin 512, x (ix2 (pickRow (N := 50000) (by decide) src e) k) * w (ix2 j k))
              * d (ix1 (pickRow (N := 50000) (by decide) src e))) * d (ix1 n) + b (ix1 j)) 0
      = max ((∑ e ∈ Finset.univ.filter (fun e : Fin 800000 => lands dst e n),
            (∑ k : Fin 512, x (ix2 (pickRow (N := 50000) (by decide) src e) k) * w (ix2 j k))
              * (d (ix1 (pickRow (N := 50000) (by decide) src e)) * d (ix1 (pickRow (N := 50000) (by decide) dstW e))))
          + b (ix1 j)) 0 := by
  have hsum : (∑ e ∈ Finset.univ.filter (fun e : Fin 800000 => lands dst e n),
            (∑ k : Fin 512, x (ix2 (pickRow (N := 50000) (by decide) src e) k) * w (ix2 j k))
              * (d (ix1 (pickRow (N := 50000) (by decide) src e)) * d (ix1 (pickRow (N := 50000) (by decide) dstW e))))
      = ∑ e ∈ Finset.univ.filter (fun e : Fin 800000 => lands dst e n),
            (∑ k : Fin 512, x (ix2 (pickRow (N := 50000) (by decide) src e) k) * w (ix2 j k))
              * (d (ix1 (pickRow (N := 50000) (by decide) src e)) * d (ix1 n)) := by
    refine Finset.sum_congr rfl fun e he => ?_
    rw [hwrap e n (Finset.mem_filter.mp he).2]
  rw [hsum]
  rw [scale_through_sum (Finset.univ.filter (fun e : Fin 800000 => lands dst e n))
    (fun e => ∑ k : Fin 512, x (ix2 (pickRow (N := 50000) (by decide) src e) k) * w (ix2 j k))
    (fun e => d (ix1 (pickRow (N := 50000) (by decide) src e))) (d (ix1 n))
    (fun e => isReal_transformed x w hx hw _ j) (fun e => hd _) (hd _)]

end Cert.GraphConv

end
-- ==== Proof.LayerEquality.lean ====
/-
  The reference's result and the kernel program's result are one array.

  At every entry `(n, j)` the reference reads the layer with the normalisers applied at the edges and the kernel program
  reads it with the normalisers applied at the nodes, over the same index columns and the same normaliser vector of the
  edge list. When the features and the weights are real the two arrangements agree.
-/
import proofs.«137502_j3169685865283_2_alg».proof.Proof.ReferenceEntry
import proofs.«137502_j3169685865283_2_alg».proof.Proof.ReferenceStages
import proofs.«137502_j3169685865283_2_alg».proof.Proof.KernelEntry
import proofs.«137502_j3169685865283_2_alg».proof.Proof.LayerBridge

noncomputable section

open scoped BigOperators

namespace Cert.LayerEquality

open Cert.GraphConv Cert.GcnLaw
open Idealize.ShloMosaic Idealize.ShloMosaic.ValueIdx Idealize.ShloMosaic.RowOps

/-- The reference's result array is the kernel program's, for real features and weights. -/
theorem results_agree (x : FVec Ideal ⟨2, ![50000, 512]⟩ .f32) (w : FVec Ideal ⟨2, ![256, 512]⟩ .f32)
    (b : FVec Ideal ⟨1, ![256]⟩ .f32) (ei : IVec E2 32) (hx : ∀ i, IsReal (x i)) (hw : ∀ i, IsReal (w i)) :
    Cert.ReferenceIdeal.ReadP.val_main_v48 (F := Ideal) x w b ei = Cert.KernelIdeal.ResultValue.kernelOut x w b ei := by
  funext i
  obtain ⟨n, j, rfl⟩ : ∃ (n : Fin 50000) (j : Fin 256), i = ix2 n j := ⟨i 0, i 1, eq_ix2 i⟩
  rw [Cert.ReferenceIdeal.Entry.reference_entry, Cert.KernelIdeal.ResultValue.kernelOut_apply,
    Cert.ReferenceIdeal.Stages.dst_column, Cert.ReferenceIdeal.Stages.src_column_features,
    Cert.ReferenceIdeal.Stages.src_column_norm, Cert.ReferenceIdeal.Stages.dst_wrapped_column,
    Cert.ReferenceIdeal.Stages.norm_vector]
  exact (arrangements_agree x w b (Cert.KernelIdeal.Stages.normOf (F := Ideal) ei)
    (idxColumn Cert.KernelIdeal.Facts₀.bcast_S800000_S800000x1_0 (wrapIdx Cert.KernelIdeal.Facts₀.bcast_S_S800000 (Cert.KernelIdeal.Stages.srcOf ei)))
    (idxColumn Cert.KernelIdeal.Facts₀.bcast_S800000_S800000x1_0 (Cert.KernelIdeal.Stages.dstOf ei))
    (idxColumn Cert.KernelIdeal.Facts₀.bcast_S800000_S800000x1_0 (wrapIdx Cert.KernelIdeal.Facts₀.bcast_S_S800000 (Cert.KernelIdeal.Stages.dstOf ei)))
    hx hw (fun i => normaliser_isReal _ _ i)
    (fun e n h => pickRow_wrapped_of_lands _ _ _ e n h) n j).symm

end Cert.LayerEquality

end
-- ==== Proof.lean ====
/-
  A graph-convolution layer with symmetric degree normalisation, in two arrangements, computes one result.

  The layer sends node features `x` through a linear transform, adds along every edge the transformed features of the
  edge's source onto its destination, weighted by the normalisers `d = deg^(-1/2)` of both ends, adds a bias and cuts off
  at zero. The kernel program applies the normalisers at the nodes: a first region computes `(x · Wᵀ)` with each row
  scaled by its node's normaliser, the host gathers these rows along the edges and adds them onto the destinations, and
  a second region scales each aggregated row by its node's normaliser, adds the bias row and takes `max(·, 0)`. The
  reference applies them at the edges: each gathered row of `x · Wᵀ` is scaled by the product of the two normalisers
  before the rows are added.

  The five claims:
    • the three frames: the two kernel programs by their generated frame proofs; the reference by its run read back;
    • the kernel program is its own idealization (nothing was rewritten);
    • at the ideal values, from memories agreeing on the arguments, both programs end with the same result array:
      the kernel program's run keeps its result buffer at the second region's array, which is `kernelOut` of the
      arguments (the regions' closed forms composed through the host stretches); the reference's result, read entry by
      entry, is the edge arrangement of the same sums over the same index columns and normalisers; an edge that lands
      on a node carries that node's normaliser as a common factor, and under the precondition the features and weights
      are real, so the factor moves across the sum and the two entries are equal.
-/
import proofs.«137502_j3169685865283_2_alg».proof.Defs
import proofs.«137502_j3169685865283_2_alg».proof.Proof.Gen.Kernel
import proofs.«137502_j3169685865283_2_alg».proof.Proof.Gen.Kernel.Skeleton
import proofs.«137502_j3169685865283_2_alg».proof.Proof.Gen.Kernel.Launch
import proofs.«137502_j3169685865283_2_alg».proof.Proof.Gen.Kernel.Points
import proofs.«137502_j3169685865283_2_alg».proof.Proof.Gen.Kernel.Frame
import proofs.«137502_j3169685865283_2_alg».proof.Proof.Gen.KernelIdeal
import proofs.«137502_j3169685865283_2_alg».proof.Proof.Gen.KernelIdeal.Skeleton
import proofs.«137502_j3169685865283_2_alg».proof.Proof.Gen.KernelIdeal.Launch
import proofs.«137502_j3169685865283_2_alg».proof.Proof.Gen.KernelIdeal.Points
import proofs.«137502_j3169685865283_2_alg».proof.Proof.Gen.KernelIdeal.Frame
import proofs.«137502_j3169685865283_2_alg».proof.Proof.Gen.ReferenceIdeal
import proofs.«137502_j3169685865283_2_alg».proof.Proof.Gen.Pre_finite_inputs
import proofs.«137502_j3169685865283_2_alg».proof.Proof.RefRun
import proofs.«137502_j3169685865283_2_alg».proof.Proof.RefRead
import proofs.«137502_j3169685865283_2_alg».proof.Proof.KernelRun
import proofs.«137502_j3169685865283_2_alg».proof.Proof.KernelValue
import proofs.«137502_j3169685865283_2_alg».proof.Proof.FiniteInputs
import proofs.«137502_j3169685865283_2_alg».proof.Proof.LayerEquality
import Idealize.ShloMosaic.Adequacy
import Idealize.ShloMosaic.Init

noncomputable section

namespace Cert.Proof

open Idealize.ShloMosaic Idealize.SL.Sem

/-- The kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Nothing was rewritten on the way to the idealization. -/
theorem preserves : Cert.preserves_Kernel_KernelIdeal := trivial

/-- At the ideal values both programs end with the same result array: `kernelOut` of the arguments. -/
theorem algebraic : Cert.algebraic_KernelIdeal_ReferenceIdeal := by
  intro m ρ m' ρ' hpre hagree
  refine ⟨fun c => Cert.KernelIdeal.ResultValue.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.ResultValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨hx, hw⟩ := Cert.Pre_finite_inputs.Decode.real_of_pre _ _ _ _ (hpre c)
    rw [Cert.ReferenceIdeal.ReadP.val_main_v48_eq, (hagree c).1, (hagree c).2.1, (hagree c).2.2.1, (hagree c).2.2.2]
    exact Cert.LayerEquality.results_agree _ _ _ _ hx hw

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
